-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x84 : Shape := ⟨2, ![128, 84]⟩
abbrev S84 : Shape := ⟨1, ![84]⟩
abbrev S84x64 : Shape := ⟨2, ![84, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x84 : S_.BroadcastsInDim S128x84 (![] : Fin 0 → Fin S128x84.rank)
  reducesTo_S128x84_S_d0_1 : S128x84.ReducesTo [0, 1] S_
  bcast_S_S84 : S_.BroadcastsInDim S84 (![] : Fin 0 → Fin S84.rank)
  reducesTo_S84_S_d0 : S84.ReducesTo [0] S_
  bcast_S_S84x64 : S_.BroadcastsInDim S84x64 (![] : Fin 0 → Fin S84x64.rank)
  reducesTo_S84x64_S_d0_1 : S84x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S32x2 .f32) (main_arg10 : FVec F S2 .f32) (main_v33 : IVec S_ 1) : IVec S_ 1 :=
  let main_v34 : FVec F S32x2 .f32 := Host.absf main_arg9
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x32 .f32) (main_arg8 : FVec F S32 .f32) (main_arg9 : FVec F S32x2 .f32) (main_arg10 : FVec F S2 .f32) (main_v13 : IVec S_ 1) (main_v16 : IVec S84x64 1) : IVec S_ 1 :=
  let main_c_5 : IVec S_ 1 := constantI S_ 1 1#1
  let main_v17 : IVec S_ 1 := (fun x v => Host.reduce IntOp.andi x v reducesTo_S84x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x84 .f32) (main_arg4 : FVec F S84 .f32) (main_arg5 : FVec F S84x64 .f32) (main_arg6 : FVec F S64 .f32) (main_arg7 : FVec F S64x32 .f32) (main_arg8 : FVec F S32 .f32) (main_arg9 : FVec F S32x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x84 .f32 := Host.absf main_arg3
  let main_cst_0 : FVec F S_ .f32 := constant S_ .f32 0x7F800000#32
  let main_v5 : FVec F S128x84 .f32 := broadcastInDim S128x84 ![] bcast_S_S128x84 main_cst_0
  let main_v6 : IVec S128x84 1 := cmpf .olt main_v4 main_v5
  let main_c_1 : IVec S_ 1 := constantI S_ 1 1#1
  let main_v7 : IVec S_ 1 := (fun x v => Host.reduce IntOp.andi x v reducesTo_S128x84_S_d0_1 h_S_) main_v6 main_c_1
  let main_v8 : IVec S_ 1 := andi main_v3 main_v7
  let main_v9 : FVec F S84 .f32 := Host.absf main_arg4
  let main_cst_2 : FVec F S_ .f32 := constant S_ .f32 0x7F800000#32
  let main_v10 : FVec F S84 .f32 := broadcastInDim S84 ![] bcast_S_S84 main_cst_2
  let main_v11 : IVec S84 1 := cmpf .olt main_v9 main_v10
  let main_c_3 : IVec S_ 1 := constantI S_ 1 1#1
  let main_v12 : IVec S_ 1 := (fun x v => Host.reduce IntOp.andi x v reducesTo_S84_S_d0 h_S_) main_v11 main_c_3
  let main_v13 : IVec S_ 1 := andi main_v8 main_v12
  let main_v14 : FVec F S84x64 .f32 := Host.absf main_arg5
  let main_cst_4 : FVec F S_ .f32 := constant S_ .f32 0x7F800000#32
  let main_v15 : FVec F S84x64 .f32 := broadcastInDim S84x64 ![] bcast_S_S84x64 main_cst_4
  let main_v16 : IVec S84x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x84 : Shape := ⟨2, ![128, 84]⟩
abbrev S84 : Shape := ⟨1, ![84]⟩
abbrev S84x64 : Shape := ⟨2, ![84, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x84 : Shape := ⟨2, ![100000, 84]⟩
abbrev S10000x128 : Shape := ⟨2, ![10000, 128]⟩
abbrev S10000x84 : Shape := ⟨2, ![10000, 84]⟩
abbrev S1700000x84 : Shape := ⟨2, ![1700000, 84]⟩
abbrev S1x84 : Shape := ⟨2, ![1, 84]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S100000x1 : Shape := ⟨2, ![100000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 181
  | .vmem => 15
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x84, .f32⟩
  | 4 => ⟨S84, .f32⟩
  | 5 => ⟨S84x64, .f32⟩
  | 6 => ⟨S64, .f32⟩
  | 7 => ⟨S64x32, .f32⟩
  | 8 => ⟨S32, .f32⟩
  | 9 => ⟨S32x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x84, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x84, .f32⟩
  | 64 => ⟨S1700000x1, .f32⟩
  | 65 => ⟨S1700000x84, .f32⟩
  | 66 => ⟨S1700000x84, .f32⟩
  | 67 => ⟨S_, .f32⟩
  | 68 => ⟨S100000x84, .f32⟩
  | 69 => ⟨S1700000x1, .i32⟩
  | 70 => ⟨S100000x84, .f32⟩
  | 71 => ⟨S1x84, .f32⟩
  | 72 => ⟨S100000x84, .f32⟩
  | 73 => ⟨S100000x84, .f32⟩
  | 74 => ⟨S_, .f32⟩
  | 75 => ⟨S100000x84, .f32⟩
  | 76 => ⟨S100000x84, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x32, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000, .f32⟩
  | 10 => ⟨S1700000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x32, .f32⟩
  | 20 => ⟨S1700000x1, .f32⟩
  | 21 => ⟨S1700000x32, .f32⟩
  | 22 => ⟨S1700000x32, .f32⟩
  | 23 => ⟨S_, .f32⟩
  | 24 => ⟨S100000x32, .f32⟩
  | 25 => ⟨S1700000x1, .i32⟩
  | 26 => ⟨S100000x32, .f32⟩
  | 27 => ⟨S1x32, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S_, .f32⟩
  | 34 => ⟨S64x32, .f32⟩
  | 35 => ⟨S100000x1, .i32⟩
  | 36 => ⟨S64x32, .f32⟩
  | 37 => ⟨S_, .f32⟩
  | 38 => ⟨S100000, .f32⟩
  | 39 => ⟨S_, .f32⟩
  | 40 => ⟨S64, .f32⟩
  | 41 => ⟨S100000x1, .i32⟩
  | 42 => ⟨S64, .f32⟩
  | 43 => ⟨S_, .f32⟩
  | 44 => ⟨S64, .f32⟩
  | 45 => ⟨S64, .f32⟩
  | 46 => ⟨S64x1, .f32⟩
  | 47 => ⟨S64x32, .f32⟩
  | 48 => ⟨S64x32, .f32⟩
  | 49 => ⟨S64x2, .f32⟩
  | 50 => ⟨S1x2, .f32⟩
  | 51 => ⟨S64x2, .f32⟩
  | 52 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x84, .f32⟩
  | .local _ .vmem, ⟨3, _⟩ => ⟨S10000x84, .f32⟩
  | .local _ .vmem, ⟨4, _⟩ => ⟨S10000x84, .f32⟩
  | .local _ .vmem, ⟨5, _⟩ => ⟨S10000x84, .f32⟩
  | .local _ .vmem, ⟨6, _⟩ => ⟨S10000x84, .f32⟩
  | .local _ .vmem, ⟨7, _⟩ => ⟨S84x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_cst : Ref sig .tc := ⟨.hbm, 74, rfl⟩
abbrev main_call2_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call4_cst : Ref sig .tc := ⟨.hbm, 116, rfl⟩
abbrev main_call4_v0 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_c_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_c_20 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_c_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call6_cst : Ref sig .tc := ⟨.hbm, 158, rfl⟩
abbrev main_call6_v0 : Ref sig .tc := ⟨.hbm, 159, rfl⟩
abbrev main_v115 : Ref sig .tc := ⟨.hbm, 160, rfl⟩
abbrev main_cst_24 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_25 : Ref sig .tc := ⟨.hbm, 165, rfl⟩
abbrev main_v119 : Ref sig .tc := ⟨.hbm, 166, rfl⟩
abbrev main_cst_26 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_27 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x84 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x84 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x84 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S84x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x84_S128x84_0_0 : ∀ a, (![0, 0] : Fin 2 → Nat) a + S128x84.size a ≤ S128x84.size a
  h_S128x84 : 0 < S128x84.numel
  inb_S10000x84_S10000x84_0_0 : ∀ a, (![0, 0] : Fin 2 → Nat) a + S10000x84.size a ≤ S10000x84.size a
  h_S10000x84 : 0 < S10000x84.numel
  bcast_S1700000x1_S1700000x84_0_1 : S1700000x1.BroadcastsInDim S1700000x84 (![0, 1] : Fin 2 → Fin S1700000x84.rank)
  bcast_S_S100000x84 : S_.BroadcastsInDim S100000x84 (![] : Fin 0 → Fin S100000x84.rank)
  bcast_S84_S1x84_1 : S84.BroadcastsInDim S1x84 (![1] : Fin 1 → Fin S1x84.rank)
  bcast_S1x84_S100000x84_0_1 : S1x84.BroadcastsInDim S100000x84 (![0, 1] : Fin 2 → Fin S100000x84.rank)
  shapeCasts_S10000x84_S10000x84 : S10000x84.ShapeCasts S10000x84
  inb_S84x64_S84x64_0_0 : ∀ a, (![0, 0] : Fin 2 → Nat) a + S84x64.size a ≤ S84x64.size a
  h_S84x64 : 0 < S84x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  dot_S10000x128_S128x84_S10000x84_1_0_0_1_n_n_wf : DotDims.WF S10000x128 S128x84 S10000x84 [1] [0] [0] [1] [] []
  gather_S100000_S1700000x1_S1700000_n_0_n_n_0_1_1_wf : GatherDims.WF S100000 S1700000x1 S1700000 [] [0] [] [0] [] 1 ![1]
  gather_S100000x84_S1700000x1_S1700000x84_1_0_n_n_0_1_184_wf : GatherDims.WF S100000x84 S1700000x1 S1700000x84 [1] [0] [] [0] [] 1 ![1, 84]
  scatter_S100000x84_S1700000x1_S1700000x84_1_0_0_1_wf : ScatterDims.WF S100000x84 S1700000x1 S1700000x84 [1] [0] [0] 1
  dot_S10000x84_S84x64_S10000x64_1_0_0_1_n_n_wf : DotDims.WF S10000x84 S84x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x84.size a ≤ S128x84.size a
  hwx0_1 : ∀ i : grid0.Coords, EltTy.bits .f32 = 32 ∨ (Rect.block (s := S128x84) S128x84.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x84.size a ≤ S100000x84.size a
  hwx0_2 : ∀ i : grid0.Coords, EltTy.bits .f32 = 32 ∨ (Rect.block (s := S100000x84) S10000x84.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x84.size a ≤ S100000x84.size a
  hwx1_0 : ∀ i : grid1.Coords, EltTy.bits .f32 = 32 ∨ (Rect.block (s := S100000x84) S10000x84.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S84x64.size a ≤ S84x64.size a
  hwx1_1 : ∀ i : grid1.Coords, EltTy.bits .f32 = 32 ∨ (Rect.block (s := S84x64) S84x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x84_S10000x84_1_0_0_1_n_n : DotDims S10000x128 S128x84 S10000x84 where
  lhsContracting := [1]
  rhsContracting := [0]
  lhsNonContracting := [0]
  rhsNonContracting := [1]
  lhsBatch := []
  rhsBatch := []
  wf := dot_S10000x128_S128x84_S10000x84_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x84_S1700000x1_S1700000x84_1_0_n_n_0_1_184 : GatherDims S100000x84 S1700000x1 S1700000x84 where
  offsetDims := [1]
  collapsedSliceDims := [0]
  operandBatchingDims := []
  startIndicesBatchingDims := []
  startIndexMap := [0]
  indexVectorDim := 1
  sliceSizes := ![1, 84]
  wf := gather_S100000x84_S1700000x1_S1700000x84_1_0_n_n_0_1_184_wf
def scatter_S100000x84_S1700000x1_S1700000x84_1_0_0_1 : ScatterDims S100000x84 S1700000x1 S1700000x84 where
  updateWindowDims := [1]
  insertedWindowDims := [0]
  scatterDimsToOperandDims := [0]
  indexVectorDim := 1
  wf := scatter_S100000x84_S1700000x1_S1700000x84_1_0_0_1_wf
def dot_S10000x84_S84x64_S10000x64_1_0_0_1_n_n : DotDims S10000x84 S84x64 S10000x64 where
  lhsContracting := [1]
  rhsContracting := [0]
  lhsNonContracting := [0]
  rhsNonContracting := [1]
  lhsBatch := []
  rhsBatch := []
  wf := dot_S10000x84_S84x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x84.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x84.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x84.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S84x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v82) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x84 : Shape := ⟨2, ![128, 84]⟩
abbrev S84 : Shape := ⟨1, ![84]⟩
abbrev S84x64 : Shape := ⟨2, ![84, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x84 : Shape := ⟨2, ![100000, 84]⟩
abbrev S1700000x84 : Shape := ⟨2, ![1700000, 84]⟩
abbrev S1x84 : Shape := ⟨2, ![1, 84]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x84, .f32⟩
  | 4 => ⟨S84, .f32⟩
  | 5 => ⟨S84x64, .f32⟩
  | 6 => ⟨S64, .f32⟩
  | 7 => ⟨S64x32, .f32⟩
  | 8 => ⟨S32, .f32⟩
  | 9 => ⟨S32x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x84, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x84, .f32⟩
  | 64 => ⟨S1700000x1, .f32⟩
  | 65 => ⟨S1700000x84, .f32⟩
  | 66 => ⟨S1700000x84, .f32⟩
  | 67 => ⟨S_, .f32⟩
  | 68 => ⟨S100000x84, .f32⟩
  | 69 => ⟨S1700000x1, .i32⟩
  | 70 => ⟨S100000x84, .f32⟩
  | 71 => ⟨S1x84, .f32⟩
  | 72 => ⟨S100000x84, .f32⟩
  | 73 => ⟨S100000x84, .f32⟩
  | 74 => ⟨S_, .f32⟩
  | 75 => ⟨S100000x84, .f32⟩
  | 76 => ⟨S100000x84, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x32, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000, .f32⟩
  | 10 => ⟨S1700000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x32, .f32⟩
  | 20 => ⟨S1700000x1, .f32⟩
  | 21 => ⟨S1700000x32, .f32⟩
  | 22 => ⟨S1700000x32, .f32⟩
  | 23 => ⟨S_, .f32⟩
  | 24 => ⟨S100000x32, .f32⟩
  | 25 => ⟨S1700000x1, .i32⟩
  | 26 => ⟨S100000x32, .f32⟩
  | 27 => ⟨S1x32, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S_, .f32⟩
  | 34 => ⟨S64x32, .f32⟩
  | 35 => ⟨S100000x1, .i32⟩
  | 36 => ⟨S64x32, .f32⟩
  | 37 => ⟨S_, .f32⟩
  | 38 => ⟨S100000, .f32⟩
  | 39 => ⟨S_, .f32⟩
  | 40 => ⟨S64, .f32⟩
  | 41 => ⟨S100000x1, .i32⟩
  | 42 => ⟨S64, .f32⟩
  | 43 => ⟨S_, .f32⟩
  | 44 => ⟨S64, .f32⟩
  | 45 => ⟨S64, .f32⟩
  | 46 => ⟨S64x1, .f32⟩
  | 47 => ⟨S64x32, .f32⟩
  | 48 => ⟨S64x32, .f32⟩
  | 49 => ⟨S64x2, .f32⟩
  | 50 => ⟨S1x2, .f32⟩
  | 51 => ⟨S64x2, .f32⟩
  | 52 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call2_cst : Ref sig .tc := ⟨.hbm, 116, rfl⟩
abbrev main_call2_v0 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_c_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_c_20 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_c_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call3_cst : Ref sig .tc := ⟨.hbm, 158, rfl⟩
abbrev main_call3_v0 : Ref sig .tc := ⟨.hbm, 159, rfl⟩
abbrev main_v115 : Ref sig .tc := ⟨.hbm, 160, rfl⟩
abbrev main_cst_24 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_25 : Ref sig .tc := ⟨.hbm, 165, rfl⟩
abbrev main_v119 : Ref sig .tc := ⟨.hbm, 166, rfl⟩
abbrev main_cst_26 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_27 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x84_0_1 : S1700000x1.BroadcastsInDim S1700000x84 (![0, 1] : Fin 2 → Fin S1700000x84.rank)
  bcast_S_S100000x84 : S_.BroadcastsInDim S100000x84 (![] : Fin 0 → Fin S100000x84.rank)
  bcast_S84_S1x84_1 : S84.BroadcastsInDim S1x84 (![1] : Fin 1 → Fin S1x84.rank)
  bcast_S1x84_S100000x84_0_1 : S1x84.BroadcastsInDim S100000x84 (![0, 1] : Fin 2 → Fin S100000x84.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  dot_S100000x128_S128x84_S100000x84_1_0_0_1_n_n_wf : DotDims.WF S100000x128 S128x84 S100000x84 [1] [0] [0] [1] [] []
  gather_S100000_S1700000x1_S1700000_n_0_n_n_0_1_1_wf : GatherDims.WF S100000 S1700000x1 S1700000 [] [0] [] [0] [] 1 ![1]
  gather_S100000x84_S1700000x1_S1700000x84_1_0_n_n_0_1_184_wf : GatherDims.WF S100000x84 S1700000x1 S1700000x84 [1] [0] [] [0] [] 1 ![1, 84]
  scatter_S100000x84_S1700000x1_S1700000x84_1_0_0_1_wf : ScatterDims.WF S100000x84 S1700000x1 S1700000x84 [1] [0] [0] 1
  dot_S100000x84_S84x64_S100000x64_1_0_0_1_n_n_wf : DotDims.WF S100000x84 S84x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x2_S64x2_1_0_0_1_n_n_wf : DotDims.WF S64x32 S32x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x84_S100000x84_1_0_0_1_n_n : DotDims S100000x128 S128x84 S100000x84 where
  lhsContracting := [1]
  rhsContracting := [0]
  lhsNonContracting := [0]
  rhsNonContracting := [1]
  lhsBatch := []
  rhsBatch := []
  wf := dot_S100000x128_S128x84_S100000x84_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x84_S1700000x1_S1700000x84_1_0_n_n_0_1_184 : GatherDims S100000x84 S1700000x1 S1700000x84 where
  offsetDims := [1]
  collapsedSliceDims := [0]
  operandBatchingDims := []
  startIndicesBatchingDims := []
  startIndexMap := [0]
  indexVectorDim := 1
  sliceSizes := ![1, 84]
  wf := gather_S100000x84_S1700000x1_S1700000x84_1_0_n_n_0_1_184_wf
def scatter_S100000x84_S1700000x1_S1700000x84_1_0_0_1 : ScatterDims S100000x84 S1700000x1 S1700000x84 where
  updateWindowDims := [1]
  insertedWindowDims := [0]
  scatterDimsToOperandDims := [0]
  indexVectorDim := 1
  wf := scatter_S100000x84_S1700000x1_S1700000x84_1_0_0_1_wf
def dot_S100000x84_S84x64_S100000x64_1_0_0_1_n_n : DotDims S100000x84 S84x64 S100000x64 where
  lhsContracting := [1]
  rhsContracting := [0]
  lhsNonContracting := [0]
  rhsNonContracting := [1]
  lhsBatch := []
  rhsBatch := []
  wf := dot_S100000x84_S84x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

class Facts : Prop extends Facts₀ where

variable [Facts]
-- ==== Proof.KRun.lean ====
/-
  The kernel program's run with EVERY unscoped buffer read at the end.

  The program is twelve segments: stretches of host operations and three matrix-product regions. The buffer contents
  at each segment boundary are a fold from the launch memory: a stretch of host operations applies its operations
  in order, a region replaces its output array by what its grid points wrote back and leaves every other buffer.
  The last boundary's contents are `W12`. Every weakly fair execution terminates, nothing faulting, and in every final
  state each unscoped buffer of each core holds `W12`'s contents: in particular the result buffer and the arguments.
  The frame claim keeps only the arguments of this reading; a value claim needs the result too, so the same run is
  stated here with the whole reading kept.
-/
import proofs.«167872_j74036646248595_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run with the result buffer and the eleven arguments named: the result at the last boundary's contents,
    each argument as launched. -/
theorem run_result : θ_run defs (onTc (τ := τ) (main (F := F))) ⟨m, fun _ => 0, ρ⟩ (fun r => ∀ c : Dev nD,
      r.2.mem ((c.tc : Thread nD τ).loc main_v131) = W12 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v131 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩)
    (run_all m ρ)

end Cert.KernelIdeal.RunAll

end
-- ==== Proof.Args.lean ====
/-
  The eleven argument arrays of a launch, each at its literal array type.

  Every invariant of the bridge states a buffer's contents at some point of the kernel program as a function of these:
  the node features x, the edge list, the graph assignment, and the weights and biases of the three layers and of the
  final linear map.
-/
import proofs.«167872_j74036646248595_1_alg».proof.Proof.Gen.KernelIdeal.Frame
import Idealize.ShloMosaic.PureOps.Ideal

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (c : Dev nD)

/-- Argument 0 as launched, on core `c`. -/
abbrev a0 : (⟨S100000x128, .f32⟩ : BufTy).Contents (Elt Ideal) := m ((c : Thread nD τ).loc main_arg0)
/-- Argument 1 as launched, on core `c`. -/
abbrev a1 : (⟨S2x1600000, .i32⟩ : BufTy).Contents (Elt Ideal) := m ((c : Thread nD τ).loc main_arg1)
/-- Argument 2 as launched, on core `c`. -/
abbrev a2 : (⟨S100000, .i32⟩ : BufTy).Contents (Elt Ideal) := m ((c : Thread nD τ).loc main_arg2)
/-- Argument 3 as launched, on core `c`. -/
abbrev a3 : (⟨S128x84, .f32⟩ : BufTy).Contents (Elt Ideal) := m ((c : Thread nD τ).loc main_arg3)
/-- Argument 4 as launched, on core `c`. -/
abbrev a4 : (⟨S84, .f32⟩ : BufTy).Contents (Elt Ideal) := m ((c : Thread nD τ).loc main_arg4)
/-- Argument 5 as launched, on core `c`. -/
abbrev a5 : (⟨S84x64, .f32⟩ : BufTy).Contents (Elt Ideal) := m ((c : Thread nD τ).loc main_arg5)
/-- Argument 6 as launched, on core `c`. -/
abbrev a6 : (⟨S64, .f32⟩ : BufTy).Contents (Elt Ideal) := m ((c : Thread nD τ).loc main_arg6)
/-- Argument 7 as launched, on core `c`. -/
abbrev a7 : (⟨S64x32, .f32⟩ : BufTy).Contents (Elt Ideal) := m ((c : Thread nD τ).loc main_arg7)
/-- Argument 8 as launched, on core `c`. -/
abbrev a8 : (⟨S32, .f32⟩ : BufTy).Contents (Elt Ideal) := m ((c : Thread nD τ).loc main_arg8)
/-- Argument 9 as launched, on core `c`. -/
abbrev a9 : (⟨S32x2, .f32⟩ : BufTy).Contents (Elt Ideal) := m ((c : Thread nD τ).loc main_arg9)
/-- Argument 10 as launched, on core `c`. -/
abbrev a10 : (⟨S2, .f32⟩ : BufTy).Contents (Elt Ideal) := m ((c : Thread nD τ).loc main_arg10)

end Cert.KernelIdeal.Bridge

end
-- ==== Proof.Calls.lean ====
/-
  The four called functions of the kernel program, as plain host operations.

  The program calls a select-with-default once (the inverse square root degree, zero where the degree is zero) and a
  clamp at zero three times (once per layer). Each call's three operations are stated over buffers typed by the callee's
  signature; since each buffer's own type is that type, they are the same three operations stated over the buffers
  directly: a copy of a constant, its broadcast, and the select or the maximum.
-/
import proofs.«167872_j74036646248595_1_alg».proof.Proof.Gen.KernelIdeal.Launch
import Idealize.ShloMosaic.PureOps.Ideal

set_option maxRecDepth 16384

noncomputable section

namespace Cert.KernelIdeal.Calls

open Cert.KernelIdeal Cert.KernelIdeal.Gen Idealize.ShloMosaic Idealize.ShloMosaic.TcCoe Idealize.SL.Sem

/-- The select-with-default's operations. -/
theorem where_ops : (hostOps0_1 : List (HloOp τ sig (Elt Ideal))) =
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v12 main_v15 main_call0_v1 main_v16 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

/-- Layer 1's clamp. -/
theorem relu1_ops : (hostOps1_1 : List (HloOp τ sig (Elt Ideal))) =
  [ StableHlo.nullary main_call2_cst (constant (F := Ideal) S_ .f32 0x00000000#32 : (⟨S_, .f32⟩ : BufTy).Contents (Elt Ideal)),
    StableHlo.unary main_call2_cst main_call2_v0 (broadcastInDim S100000x84 ![] bcast_S_S100000x84 : (⟨S_, .f32⟩ : BufTy).Contents (Elt Ideal) → (⟨S100000x84, .f32⟩ : BufTy).Contents (Elt Ideal)),
    StableHlo.binary main_v48 main_call2_v0 main_v49 (maximumf (F := Ideal) (φ := .f32) : (⟨S100000x84, .f32⟩ : BufTy).Contents (Elt Ideal) → (⟨S100000x84, .f32⟩ : BufTy).Contents (Elt Ideal) → (⟨S100000x84, .f32⟩ : BufTy).Contents (Elt Ideal)) ] := rfl

/-- Layer 2's clamp. -/
theorem relu2_ops : (hostOps2_1 : List (HloOp τ sig (Elt Ideal))) =
  [ StableHlo.nullary main_call4_cst (constant (F := Ideal) S_ .f32 0x00000000#32 : (⟨S_, .f32⟩ : BufTy).Contents (Elt Ideal)),
    StableHlo.unary main_call4_cst main_call4_v0 (broadcastInDim S100000x64 ![] bcast_S_S100000x64 : (⟨S_, .f32⟩ : BufTy).Contents (Elt Ideal) → (⟨S100000x64, .f32⟩ : BufTy).Contents (Elt Ideal)),
    StableHlo.binary main_v81 main_call4_v0 main_v82 (maximumf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) ] := rfl

/-- Layer 3's clamp. -/
theorem relu3_ops : (hostOps3_1 : List (HloOp τ sig (Elt Ideal))) =
  [ StableHlo.nullary main_call6_cst (constant (F := Ideal) S_ .f32 0x00000000#32 : (⟨S_, .f32⟩ : BufTy).Contents (Elt Ideal)),
    StableHlo.unary main_call6_cst main_call6_v0 (broadcastInDim S100000x32 ![] bcast_S_S100000x32 : (⟨S_, .f32⟩ : BufTy).Contents (Elt Ideal) → (⟨S100000x32, .f32⟩ : BufTy).Contents (Elt Ideal)),
    StableHlo.binary main_v114 main_call6_v0 main_v115 (maximumf (F := Ideal) (φ := .f32) : (⟨S100000x32, .f32⟩ : BufTy).Contents (Elt Ideal) → (⟨S100000x32, .f32⟩ : BufTy).Contents (Elt Ideal) → (⟨S100000x32, .f32⟩ : BufTy).Contents (Elt Ideal)) ] := rfl

end Cert.KernelIdeal.Calls

end
-- ==== Proof.SegA.lean ====
/-
  The kernel program before its first projection.

  The host operations ahead of the first region build, from the edge list, the source and the target node of every
  message (the edges followed by one self loop per node) and every node's inverse square root degree (zero where the
  degree is zero). They write no argument. Each of these three arrays is the same function of the edge list as the
  reference program's value of the same name.
-/
import proofs.«167872_j74036646248595_1_alg».proof.Proof.Args
import proofs.«167872_j74036646248595_1_alg».proof.Proof.Calls
import proofs.«167872_j74036646248595_1_alg».proof.Proof.RefRead

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The value a line of host operations leaves in a buffer, one operation at a time: an operation's own result buffer
    takes its function's value, every other buffer keeps what it held. Used for the pieces of a concatenation. -/
macro "clean_results" : tactic =>
  `(tactic| (repeat (first
               | rw [Idealize.ShloMosaic.StableHlo.nullary_result] | rw [Idealize.ShloMosaic.StableHlo.unary_result] | rw [Idealize.ShloMosaic.StableHlo.binary_result] | rw [Idealize.ShloMosaic.StableHlo.ternary_result] | rw [Idealize.ShloMosaic.StableHlo.reshape_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide))))

/-- The source node of every message, on entry to the first region. -/
theorem A_v3 : W2 m ρ c (Proc.devRef .tc main_v3) = Cert.ReferenceIdeal.Read.val_main_v3 (F := Ideal) (a1 m c) := by
  show StableHlo.after hostOps0_1 (StableHlo.after hostOps0 (W0 m ρ c)) (Proc.devRef .tc main_v3) = _
  rw [Cert.KernelIdeal.Calls.where_ops]
  dsimp only [hostOps0]
  after_results_simp
  clean_results
  rfl
/-- The target node of every message, on entry to the first region. -/
theorem A_v6 : W2 m ρ c (Proc.devRef .tc main_v6) = Cert.ReferenceIdeal.Read.val_main_v6 (F := Ideal) (a1 m c) := by
  show StableHlo.after hostOps0_1 (StableHlo.after hostOps0 (W0 m ρ c)) (Proc.devRef .tc main_v6) = _
  rw [Cert.KernelIdeal.Calls.where_ops]
  dsimp only [hostOps0]
  after_results_simp
  clean_results
  rfl
/-- The inverse square root of every node's degree, on entry to the first region. -/
theorem A_v16 : W2 m ρ c (Proc.devRef .tc main_v16) = Cert.ReferenceIdeal.Read.val_main_v16 (F := Ideal) (a1 m c) := by
  show StableHlo.after hostOps0_1 (StableHlo.after hostOps0 (W0 m ρ c)) (Proc.devRef .tc main_v16) = _
  rw [Cert.KernelIdeal.Calls.where_ops]
  dsimp only [hostOps0]
  after_results_simp
  clean_results
  rfl
/-- Argument 0 is as launched on entry to the first region. -/
theorem A_arg0 : W2 m ρ c (Proc.devRef .tc main_arg0) = a0 m c := by
  show StableHlo.after hostOps0_1 (StableHlo.after hostOps0 (W0 m ρ c)) (Proc.devRef .tc main_arg0) = _
  rw [Cert.KernelIdeal.Calls.where_ops]
  dsimp only [hostOps0]
  after_results_simp <;> rfl
/-- Argument 2 is as launched on entry to the first region. -/
theorem A_arg2 : W2 m ρ c (Proc.devRef .tc main_arg2) = a2 m c := by
  show StableHlo.after hostOps0_1 (StableHlo.after hostOps0 (W0 m ρ c)) (Proc.devRef .tc main_arg2) = _
  rw [Cert.KernelIdeal.Calls.where_ops]
  dsimp only [hostOps0]
  after_results_simp <;> rfl
/-- Argument 3 is as launched on entry to the first region. -/
theorem A_arg3 : W2 m ρ c (Proc.devRef .tc main_arg3) = a3 m c := by
  show StableHlo.after hostOps0_1 (StableHlo.after hostOps0 (W0 m ρ c)) (Proc.devRef .tc main_arg3) = _
  rw [Cert.KernelIdeal.Calls.where_ops]
  dsimp only [hostOps0]
  after_results_simp <;> rfl
/-- Argument 4 is as launched on entry to the first region. -/
theorem A_arg4 : W2 m ρ c (Proc.devRef .tc main_arg4) = a4 m c := by
  show StableHlo.after hostOps0_1 (StableHlo.after hostOps0 (W0 m ρ c)) (Proc.devRef .tc main_arg4) = _
  rw [Cert.KernelIdeal.Calls.where_ops]
  dsimp only [hostOps0]
  after_results_simp <;> rfl
/-- Argument 5 is as launched on entry to the first region. -/
theorem A_arg5 : W2 m ρ c (Proc.devRef .tc main_arg5) = a5 m c := by
  show StableHlo.after hostOps0_1 (StableHlo.after hostOps0 (W0 m ρ c)) (Proc.devRef .tc main_arg5) = _
  rw [Cert.KernelIdeal.Calls.where_ops]
  dsimp only [hostOps0]
  after_results_simp <;> rfl
/-- Argument 6 is as launched on entry to the first region. -/
theorem A_arg6 : W2 m ρ c (Proc.devRef .tc main_arg6) = a6 m c := by
  show StableHlo.after hostOps0_1 (StableHlo.after hostOps0 (W0 m ρ c)) (Proc.devRef .tc main_arg6) = _
  rw [Cert.KernelIdeal.Calls.where_ops]
  dsimp only [hostOps0]
  after_results_simp <;> rfl
/-- Argument 7 is as launched on entry to the first region. -/
theorem A_arg7 : W2 m ρ c (Proc.devRef .tc main_arg7) = a7 m c := by
  show StableHlo.after hostOps0_1 (StableHlo.after hostOps0 (W0 m ρ c)) (Proc.devRef .tc main_arg7) = _
  rw [Cert.KernelIdeal.Calls.where_ops]
  dsimp only [hostOps0]
  after_results_simp <;> rfl
/-- Argument 8 is as launched on entry to the first region. -/
theorem A_arg8 : W2 m ρ c (Proc.devRef .tc main_arg8) = a8 m c := by
  show StableHlo.after hostOps0_1 (StableHlo.after hostOps0 (W0 m ρ c)) (Proc.devRef .tc main_arg8) = _
  rw [Cert.KernelIdeal.Calls.where_ops]
  dsimp only [hostOps0]
  after_results_simp <;> rfl
/-- Argument 9 is as launched on entry to the first region. -/
theorem A_arg9 : W2 m ρ c (Proc.devRef .tc main_arg9) = a9 m c := by
  show StableHlo.after hostOps0_1 (StableHlo.after hostOps0 (W0 m ρ c)) (Proc.devRef .tc main_arg9) = _
  rw [Cert.KernelIdeal.Calls.where_ops]
  dsimp only [hostOps0]
  after_results_simp <;> rfl
/-- Argument 10 is as launched on entry to the first region. -/
theorem A_arg10 : W2 m ρ c (Proc.devRef .tc main_arg10) = a10 m c := by
  show StableHlo.after hostOps0_1 (StableHlo.after hostOps0 (W0 m ρ c)) (Proc.devRef .tc main_arg10) = _
  rw [Cert.KernelIdeal.Calls.where_ops]
  dsimp only [hostOps0]
  after_results_simp <;> rfl

end Cert.KernelIdeal.Bridge

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.RefDot.lean ====
/-
  The reference program's three projections at one output entry.

  Each is a host product of a [100000, K] array with a [K, N] array whose dimension numbers contract the second axis of
  the left operand with the first of the right and keep the other two in order; on the extended reals its entry (a, b)
  is Σ_k l[a,k] · r[k,b], for K = 128, 84 and 64.
-/
import proofs.«167872_j74036646248595_1_alg».proof.Proof.Gen.ReferenceIdeal
import proofs.«167872_j74036646248595_1_alg».proof.Proof.LibDotAt
import Idealize.ShloMosaic.Lib.ValueIdx
import Idealize.ShloMosaic.PureOps.Ideal.Laws

noncomputable section

open scoped BigOperators

namespace Cert.ReferenceIdeal.DotEntry

open Cert.ReferenceIdeal Idealize.ShloMosaic Idealize.ShloMosaic.ValueIdx

/-! ## Layer 1: [100000, 128] times [128, 84] -/

theorem l0_0 (j : S100000x84.Idx) (q : dot_S100000x128_S128x84_S100000x84_1_0_0_1_n_n.contr.Idx) :
    (dot_S100000x128_S128x84_S100000x84_1_0_0_1_n_n.lhsIdx j q 0).val = (j 0).val := by
  unfold DotDims.lhsIdx
  rw [dif_neg (show ¬(0 : Fin S100000x128.rank) ∈ dot_S100000x128_S128x84_S100000x84_1_0_0_1_n_n.lhsBatch by decide), dif_pos (show (0 : Fin S100000x128.rank) ∈ dot_S100000x128_S128x84_S100000x84_1_0_0_1_n_n.lhsNonContracting by decide)]
  rfl
theorem l0_1 (j : S100000x84.Idx) (q : dot_S100000x128_S128x84_S100000x84_1_0_0_1_n_n.contr.Idx) :
    (dot_S100000x128_S128x84_S100000x84_1_0_0_1_n_n.lhsIdx j q 1).val = (q ⟨0, by decide⟩).val :=
  dot_S100000x128_S128x84_S100000x84_1_0_0_1_n_n.lhsIdx_val_of_single rfl j q
theorem r0_0 (j : S100000x84.Idx) (q : dot_S100000x128_S128x84_S100000x84_1_0_0_1_n_n.contr.Idx) :
    (dot_S100000x128_S128x84_S100000x84_1_0_0_1_n_n.rhsIdx j q 0).val = (q ⟨0, by decide⟩).val :=
  dot_S100000x128_S128x84_S100000x84_1_0_0_1_n_n.rhsIdx_val_of_single rfl j q
theorem r0_1 (j : S100000x84.Idx) (q : dot_S100000x128_S128x84_S100000x84_1_0_0_1_n_n.contr.Idx) :
    (dot_S100000x128_S128x84_S100000x84_1_0_0_1_n_n.rhsIdx j q 1).val = (j 1).val := by
  unfold DotDims.rhsIdx
  rw [dif_neg (show ¬(1 : Fin S128x84.rank) ∈ dot_S100000x128_S128x84_S100000x84_1_0_0_1_n_n.rhsBatch by decide), dif_pos (show (1 : Fin S128x84.rank) ∈ dot_S100000x128_S128x84_S100000x84_1_0_0_1_n_n.rhsNonContracting by decide)]
  rfl

/-- Entry (a, b) of the layer's host product. -/
theorem prod0_entry (l : FVec Ideal S100000x128 .f32) (r : FVec Ideal S128x84 .f32) (a : Fin 100000) (b : Fin 84) :
    Host.dotGeneral (F := Ideal) dot_S100000x128_S128x84_S100000x84_1_0_0_1_n_n none l r (ix2 a b) = ∑ k : Fin 128, l (ix2 a k) * r (ix2 k b) := by
  show FloatOps.dotGeneral (F := Ideal) dot_S100000x128_S128x84_S100000x84_1_0_0_1_n_n none _ l r (ix2 a b) = _
  exact Cert.LibDotAt.dotGeneral_ix2 dot_S100000x128_S128x84_S100000x84_1_0_0_1_n_n rfl rfl l0_0 l0_1 r0_0 r0_1 none _ l r a b

/-! ## Layer 2: [100000, 84] times [84, 64] -/

theorem l1_0 (j : S100000x64.Idx) (q : dot_S100000x84_S84x64_S100000x64_1_0_0_1_n_n.contr.Idx) :
    (dot_S100000x84_S84x64_S100000x64_1_0_0_1_n_n.lhsIdx j q 0).val = (j 0).val := by
  unfold DotDims.lhsIdx
  rw [dif_neg (show ¬(0 : Fin S100000x84.rank) ∈ dot_S100000x84_S84x64_S100000x64_1_0_0_1_n_n.lhsBatch by decide), dif_pos (show (0 : Fin S100000x84.rank) ∈ dot_S100000x84_S84x64_S100000x64_1_0_0_1_n_n.lhsNonContracting by decide)]
  rfl
theorem l1_1 (j : S100000x64.Idx) (q : dot_S100000x84_S84x64_S100000x64_1_0_0_1_n_n.contr.Idx) :
    (dot_S100000x84_S84x64_S100000x64_1_0_0_1_n_n.lhsIdx j q 1).val = (q ⟨0, by decide⟩).val :=
  dot_S100000x84_S84x64_S100000x64_1_0_0_1_n_n.lhsIdx_val_of_single rfl j q
theorem r1_0 (j : S100000x64.Idx) (q : dot_S100000x84_S84x64_S100000x64_1_0_0_1_n_n.contr.Idx) :
    (dot_S100000x84_S84x64_S100000x64_1_0_0_1_n_n.rhsIdx j q 0).val = (q ⟨0, by decide⟩).val :=
  dot_S100000x84_S84x64_S100000x64_1_0_0_1_n_n.rhsIdx_val_of_single rfl j q
theorem r1_1 (j : S100000x64.Idx) (q : dot_S100000x84_S84x64_S100000x64_1_0_0_1_n_n.contr.Idx) :
    (dot_S100000x84_S84x64_S100000x64_1_0_0_1_n_n.rhsIdx j q 1).val = (j 1).val := by
  unfold DotDims.rhsIdx
  rw [dif_neg (show ¬(1 : Fin S84x64.rank) ∈ dot_S100000x84_S84x64_S100000x64_1_0_0_1_n_n.rhsBatch by decide), dif_pos (show (1 : Fin S84x64.rank) ∈ dot_S100000x84_S84x64_S100000x64_1_0_0_1_n_n.rhsNonContracting by decide)]
  rfl

/-- Entry (a, b) of the layer's host product. -/
theorem prod1_entry (l : FVec Ideal S100000x84 .f32) (r : FVec Ideal S84x64 .f32) (a : Fin 100000) (b : Fin 64) :
    Host.dotGeneral (F := Ideal) dot_S100000x84_S84x64_S100000x64_1_0_0_1_n_n none l r (ix2 a b) = ∑ k : Fin 84, l (ix2 a k) * r (ix2 k b) := by
  show FloatOps.dotGeneral (F := Ideal) dot_S100000x84_S84x64_S100000x64_1_0_0_1_n_n none _ l r (ix2 a b) = _
  exact Cert.LibDotAt.dotGeneral_ix2 dot_S100000x84_S84x64_S100000x64_1_0_0_1_n_n rfl rfl l1_0 l1_1 r1_0 r1_1 none _ l r a b

/-! ## Layer 3: [100000, 64] times [64, 32] -/

theorem l2_0 (j : S100000x32.Idx) (q : dot_S100000x64_S64x32_S100000x32_1_0_0_1_n_n.contr.Idx) :
    (dot_S100000x64_S64x32_S100000x32_1_0_0_1_n_n.lhsIdx j q 0).val = (j 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem l2_1 (j : S100000x32.Idx) (q : dot_S100000x64_S64x32_S100000x32_1_0_0_1_n_n.contr.Idx) :
    (dot_S100000x64_S64x32_S100000x32_1_0_0_1_n_n.lhsIdx j q 1).val = (q ⟨0, by decide⟩).val :=
  dot_S100000x64_S64x32_S100000x32_1_0_0_1_n_n.lhsIdx_val_of_single rfl j q
theorem r2_0 (j : S100000x32.Idx) (q : dot_S100000x64_S64x32_S100000x32_1_0_0_1_n_n.contr.Idx) :
    (dot_S100000x64_S64x32_S100000x32_1_0_0_1_n_n.rhsIdx j q 0).val = (q ⟨0, by decide⟩).val :=
  dot_S100000x64_S64x32_S100000x32_1_0_0_1_n_n.rhsIdx_val_of_single rfl j q
theorem r2_1 (j : S100000x32.Idx) (q : dot_S100000x64_S64x32_S100000x32_1_0_0_1_n_n.contr.Idx) :
    (dot_S100000x64_S64x32_S100000x32_1_0_0_1_n_n.rhsIdx j q 1).val = (j 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- Entry (a, b) of the layer's host product. -/
theorem prod2_entry (l : FVec Ideal S100000x64 .f32) (r : FVec Ideal S64x32 .f32) (a : Fin 100000) (b : Fin 32) :
    Host.dotGeneral (F := Ideal) dot_S100000x64_S64x32_S100000x32_1_0_0_1_n_n none l r (ix2 a b) = ∑ k : Fin 64, l (ix2 a k) * r (ix2 k b) := by
  show FloatOps.dotGeneral (F := Ideal) dot_S100000x64_S64x32_S100000x32_1_0_0_1_n_n none _ l r (ix2 a b) = _
  exact Cert.LibDotAt.dotGeneral_ix2 dot_S100000x64_S64x32_S100000x32_1_0_0_1_n_n rfl rfl l2_0 l2_1 r2_0 r2_1 none _ l r a b

end Cert.ReferenceIdeal.DotEntry

end
-- ==== Proof.MatEntry.lean ====
/-
  The three projection bodies at one output entry.

  Each body loads a block of 10000 rows of the activations and the whole weight matrix, changes both to a narrower
  float format, and multiplies them into a zero accumulator. On the extended reals a change of float format is the
  identity and the product into zero is the plain sum, so entry (p, q) of what the body stores is
  Σ_k x[p,k] · w[k,q] over the contraction extent: 128, 84 and 64 for the three layers. The four index facts per
  product say that its dimension numbers contract the second axis of the left operand with the first of the right and
  keep the other two in order.
-/
import proofs.«167872_j74036646248595_1_alg».proof.Proof.Gen.KernelIdeal.Skeleton
import proofs.«167872_j74036646248595_1_alg».proof.Proof.LibDotAt
import Idealize.ShloMosaic.Lib.Pipeline.Value
import Idealize.ShloMosaic.Lib.ValueIdx
import Idealize.ShloMosaic.PureOps.Ideal.Laws

noncomputable section

open scoped BigOperators

namespace Cert.KernelIdeal.MatEntry

open Cert.KernelIdeal Cert.KernelIdeal.Gen Idealize.ShloMosaic Idealize.ShloMosaic.ValueIdx

/-! ## Layer 1: a [10000, 128] block times the [128, 84] weights -/

theorem l0_0 (j : S10000x84.Idx) (q : dot_S10000x128_S128x84_S10000x84_1_0_0_1_n_n.contr.Idx) :
    (dot_S10000x128_S128x84_S10000x84_1_0_0_1_n_n.lhsIdx j q 0).val = (j 0).val := by
  unfold DotDims.lhsIdx
  rw [dif_neg (show ¬(0 : Fin S10000x128.rank) ∈ dot_S10000x128_S128x84_S10000x84_1_0_0_1_n_n.lhsBatch by decide), dif_pos (show (0 : Fin S10000x128.rank) ∈ dot_S10000x128_S128x84_S10000x84_1_0_0_1_n_n.lhsNonContracting by decide)]
  rfl
theorem l0_1 (j : S10000x84.Idx) (q : dot_S10000x128_S128x84_S10000x84_1_0_0_1_n_n.contr.Idx) :
    (dot_S10000x128_S128x84_S10000x84_1_0_0_1_n_n.lhsIdx j q 1).val = (q ⟨0, by decide⟩).val :=
  dot_S10000x128_S128x84_S10000x84_1_0_0_1_n_n.lhsIdx_val_of_single rfl j q
theorem r0_0 (j : S10000x84.Idx) (q : dot_S10000x128_S128x84_S10000x84_1_0_0_1_n_n.contr.Idx) :
    (dot_S10000x128_S128x84_S10000x84_1_0_0_1_n_n.rhsIdx j q 0).val = (q ⟨0, by decide⟩).val :=
  dot_S10000x128_S128x84_S10000x84_1_0_0_1_n_n.rhsIdx_val_of_single rfl j q
theorem r0_1 (j : S10000x84.Idx) (q : dot_S10000x128_S128x84_S10000x84_1_0_0_1_n_n.contr.Idx) :
    (dot_S10000x128_S128x84_S10000x84_1_0_0_1_n_n.rhsIdx j q 1).val = (j 1).val := by
  unfold DotDims.rhsIdx
  rw [dif_neg (show ¬(1 : Fin S128x84.rank) ∈ dot_S10000x128_S128x84_S10000x84_1_0_0_1_n_n.rhsBatch by decide), dif_pos (show (1 : Fin S128x84.rank) ∈ dot_S10000x128_S128x84_S10000x84_1_0_0_1_n_n.rhsNonContracting by decide)]
  rfl

/-- Entry (p, q) of what the layer's body stores, from the two blocks it loaded. -/
theorem pay0_entry (x0 : Vec Ideal S10000x128 .f32) (x1 : Vec Ideal S128x84 .f32) (p : Fin 10000) (q : Fin 84) :
    k0_pay1 (F := Ideal) x0 x1 (ix2 p q) = ∑ k : Fin 128, x0 (ix2 p k) * x1 (ix2 k q) := by
  unfold k0_pay1
  exact Cert.LibDotAt.matmul_zero_ix2 dot_S10000x128_S128x84_S10000x84_1_0_0_1_n_n rfl rfl l0_0 l0_1 r0_0 r0_1 none _ _ p q

/-! ## Layer 2: a [10000, 84] block times the [84, 64] weights -/

theorem l1_0 (j : S10000x64.Idx) (q : dot_S10000x84_S84x64_S10000x64_1_0_0_1_n_n.contr.Idx) :
    (dot_S10000x84_S84x64_S10000x64_1_0_0_1_n_n.lhsIdx j q 0).val = (j 0).val := by
  unfold DotDims.lhsIdx
  rw [dif_neg (show ¬(0 : Fin S10000x84.rank) ∈ dot_S10000x84_S84x64_S10000x64_1_0_0_1_n_n.lhsBatch by decide), dif_pos (show (0 : Fin S10000x84.rank) ∈ dot_S10000x84_S84x64_S10000x64_1_0_0_1_n_n.lhsNonContracting by decide)]
  rfl
theorem l1_1 (j : S10000x64.Idx) (q : dot_S10000x84_S84x64_S10000x64_1_0_0_1_n_n.contr.Idx) :
    (dot_S10000x84_S84x64_S10000x64_1_0_0_1_n_n.lhsIdx j q 1).val = (q ⟨0, by decide⟩).val :=
  dot_S10000x84_S84x64_S10000x64_1_0_0_1_n_n.lhsIdx_val_of_single rfl j q
theorem r1_0 (j : S10000x64.Idx) (q : dot_S10000x84_S84x64_S10000x64_1_0_0_1_n_n.contr.Idx) :
    (dot_S10000x84_S84x64_S10000x64_1_0_0_1_n_n.rhsIdx j q 0).val = (q ⟨0, by decide⟩).val :=
  dot_S10000x84_S84x64_S10000x64_1_0_0_1_n_n.rhsIdx_val_of_single rfl j q
theorem r1_1 (j : S10000x64.Idx) (q : dot_S10000x84_S84x64_S10000x64_1_0_0_1_n_n.contr.Idx) :
    (dot_S10000x84_S84x64_S10000x64_1_0_0_1_n_n.rhsIdx j q 1).val = (j 1).val := by
  unfold DotDims.rhsIdx
  rw [dif_neg (show ¬(1 : Fin S84x64.rank) ∈ dot_S10000x84_S84x64_S10000x64_1_0_0_1_n_n.rhsBatch by decide), dif_pos (show (1 : Fin S84x64.rank) ∈ dot_S10000x84_S84x64_S10000x64_1_0_0_1_n_n.rhsNonContracting by decide)]
  rfl

/-- Entry (p, q) of what the layer's body stores, from the two blocks it loaded. -/
theorem pay1_entry (x0 : Vec Ideal S10000x84 .f32) (x1 : Vec Ideal S84x64 .f32) (p : Fin 10000) (q : Fin 64) :
    k1_pay1 (F := Ideal) x0 x1 (ix2 p q) = ∑ k : Fin 84, x0 (ix2 p k) * x1 (ix2 k q) := by
  unfold k1_pay1
  rw [shapeCast_self]
  exact Cert.LibDotAt.matmul_zero_ix2 dot_S10000x84_S84x64_S10000x64_1_0_0_1_n_n rfl rfl l1_0 l1_1 r1_0 r1_1 none _ _ p q

/-! ## Layer 3: a [10000, 64] block times the [64, 32] weights -/

theorem l2_0 (j : S10000x32.Idx) (q : dot_S10000x64_S64x32_S10000x32_1_0_0_1_n_n.contr.Idx) :
    (dot_S10000x64_S64x32_S10000x32_1_0_0_1_n_n.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem l2_1 (j : S10000x32.Idx) (q : dot_S10000x64_S64x32_S10000x32_1_0_0_1_n_n.contr.Idx) :
    (dot_S10000x64_S64x32_S10000x32_1_0_0_1_n_n.lhsIdx j q 1).val = (q ⟨0, by decide⟩).val :=
  dot_S10000x64_S64x32_S10000x32_1_0_0_1_n_n.lhsIdx_val_of_single rfl j q
theorem r2_0 (j : S10000x32.Idx) (q : dot_S10000x64_S64x32_S10000x32_1_0_0_1_n_n.contr.Idx) :
    (dot_S10000x64_S64x32_S10000x32_1_0_0_1_n_n.rhsIdx j q 0).val = (q ⟨0, by decide⟩).val :=
  dot_S10000x64_S64x32_S10000x32_1_0_0_1_n_n.rhsIdx_val_of_single rfl j q
theorem r2_1 (j : S10000x32.Idx) (q : dot_S10000x64_S64x32_S10000x32_1_0_0_1_n_n.contr.Idx) :
    (dot_S10000x64_S64x32_S10000x32_1_0_0_1_n_n.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Entry (p, q) of what the layer's body stores, from the two blocks it loaded. -/
theorem pay2_entry (x0 : Vec Ideal S10000x64 .f32) (x1 : Vec Ideal S64x32 .f32) (p : Fin 10000) (q : Fin 32) :
    k2_pay1 (F := Ideal) x0 x1 (ix2 p q) = ∑ k : Fin 64, x0 (ix2 p k) * x1 (ix2 k q) := by
  unfold k2_pay1
  rw [shapeCast_self]
  exact Cert.LibDotAt.matmul_zero_ix2 dot_S10000x64_S64x32_S10000x32_1_0_0_1_n_n rfl rfl l2_0 l2_1 r2_0 r2_1 none _ _ p q

end Cert.KernelIdeal.MatEntry

end
-- ==== Proof.LibRowBlock.lean ====
/-
  A block of rows of a matrix product.

  Let X be an M × K matrix and W a K × N matrix over the extended reals, and let x be the block of Mb rows of X that
  starts at row o, read through any map of indices that adds o to the row and keeps the column. Then entry (p, q) of
  the product of the block with W is entry (o + p, q) of the product of X with W: both are the sum over k of
  X[o+p, k] · W[k, q]. Nothing about the extended reals is used beyond the terms being equal one by one. Any extents.
-/
import Idealize.ShloMosaic.PureOps.Ideal
import Idealize.ShloMosaic.Lib.ValueIdx

noncomputable section

open scoped BigOperators

namespace Cert.LibRowBlock

open Idealize.ShloMosaic Idealize.ShloMosaic.ValueIdx

variable {M Mb K N : Nat}

/-- Entry (p, q) of a row block times the weights is entry (a, b) of the whole product when a is row p of the block
    (`a = o + p`) and b is column q. The block `x` is given by what it reads: at an index `y` it holds `X` at any
    index `z` whose row is `o` plus `y`'s and whose column is `y`'s; the weights `w` are `W` entry by entry. -/
theorem rowBlock_sum (X : (⟨2, ![M, K]⟩ : Shape).Idx → EReal) (W : (⟨2, ![K, N]⟩ : Shape).Idx → EReal)
    (x : (⟨2, ![Mb, K]⟩ : Shape).Idx → EReal) (w : (⟨2, ![K, N]⟩ : Shape).Idx → EReal) (o : Nat)
    (hx : ∀ (y : (⟨2, ![Mb, K]⟩ : Shape).Idx) (z : (⟨2, ![M, K]⟩ : Shape).Idx),
      (z 0).val = o + (y 0).val → (z 1).val = (y 1).val → x y = X z)
    (hw : ∀ y, w y = W y)
    (p : Fin Mb) (q : Fin N) (a : Fin M) (b : Fin N) (ha : a.val = o + p.val) (hb : b.val = q.val) :
    ∑ k : Fin K, x (ix2 p k) * w (ix2 k q) = ∑ k : Fin K, X (ix2 a k) * W (ix2 k b) := by
  have e : b = q := Fin.ext hb
  subst e
  refine Finset.sum_congr rfl fun k _ => ?_
  rw [hx (ix2 p k) (ix2 a k) ha rfl, hw]

end Cert.LibRowBlock

end
-- ==== Proof.Region0.lean ====
/-
  Layer 1's projection region as one matrix product.

  The region's grid has ten points. Point t stages rows 10000·t … 10000·t + 9999 of the [100000, 128] activations and
  the whole [128, 84] weight matrix, and writes back rows 10000·t … 10000·t + 9999 of the [100000, 84] output:
  entry (p, q) of the written block is Σ_k x[10000·t + p, k] · w[k, q], which is entry (10000·t + p, q) of the product
  of the whole matrices. The ten blocks tile the output array (row r lies in block r / 10000), so after the region the
  output array IS the host's product of the two arrays as the region found them, on the extended reals.
-/
import proofs.«167872_j74036646248595_1_alg».proof.Proof.Gen.KernelIdeal.Frame
import proofs.«167872_j74036646248595_1_alg».proof.Proof.RefDot
import proofs.«167872_j74036646248595_1_alg».proof.Proof.MatEntry
import proofs.«167872_j74036646248595_1_alg».proof.Proof.LibRowBlock

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The host's product of a [100000, 128] array and a [128, 84] array, with the reference program's dimension numbers. -/
abbrev prod (X : FVec Ideal S100000x128 .f32) (W : FVec Ideal S128x84 .f32) : FVec Ideal S100000x84 .f32 :=
  Host.dotGeneral (F := Ideal) Cert.ReferenceIdeal.dot_S100000x128_S128x84_S100000x84_1_0_0_1_n_n none X W

/-- Entry `i` of the whole product from a block of rows: `x` holds rows `o …` of `X`, `w` holds `W`, and `i` is row
    `o` plus `j`'s, column `j`'s. -/
theorem block_entry (X : FVec Ideal S100000x128 .f32) (W : FVec Ideal S128x84 .f32) (x : Vec Ideal S10000x128 .f32) (w : Vec Ideal S128x84 .f32) (o : Nat)
    (hx : ∀ (y : S10000x128.Idx) (z : S100000x128.Idx), (z 0).val = o + (y 0).val → (z 1).val = (y 1).val → x y = X z)
    (hw : ∀ y : S128x84.Idx, w y = W y)
    (j : S10000x84.Idx) (i : S100000x84.Idx) (hi0 : (i 0).val = o + (j 0).val) (hi1 : (i 1).val = (j 1).val) :
    k0_pay1 (F := Ideal) x w j = prod X W i := by
  obtain ⟨p, q, rfl⟩ : ∃ (p : Fin 10000) (q : Fin 84), j = ix2 p q := ⟨j 0, j 1, eq_ix2 j⟩
  obtain ⟨a, b, rfl⟩ : ∃ (a : Fin 100000) (b : Fin 84), i = ix2 a b := ⟨i 0, i 1, eq_ix2 i⟩
  rw [Cert.KernelIdeal.MatEntry.pay0_entry]
  show _ = Host.dotGeneral (F := Ideal) Cert.ReferenceIdeal.dot_S100000x128_S128x84_S100000x84_1_0_0_1_n_n none X W (ix2 a b)
  rw [Cert.ReferenceIdeal.DotEntry.prod0_entry]
  exact Cert.LibRowBlock.rowBlock_sum X W x w o hx hw p q a b hi0 hi1

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the activations' and the output's row block is the point's number, the weights'
    block and every column block is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x84) hz]
  obtain ⟨e0, e1, e2, e3, e4, e5⟩ := idx_facts t
  funext j
  show k0_pay1 (F := Ideal) (iblk0 V c 0 t) (iblk0 V c 1 t) j = prod (V c main_arg0) (V c main_arg3) (((cfg0.win 2).blk t).view.emb j)
  refine block_entry (V c main_arg0) (V c main_arg3) (iblk0 V c 0 t) (iblk0 V c 1 t) (t.val * 10000) ?_ ?_ j (((cfg0.win 2).blk t).view.emb j) ?_ ?_
  · intro y z hz0 hz1
    show V c main_arg0 (((cfg0.win 0).blk t).view.emb y) = V c main_arg0 z
    refine congrArg (V c main_arg0) ?_
    funext a; apply Fin.ext
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · intro y
    show V c main_arg3 (((cfg0.win 1).blk t).view.emb y) = V c main_arg3 y
    refine congrArg (V c main_arg3) ?_
    funext a; apply Fin.ext
    match a with
    | ⟨0, _⟩ => show win0_1.index t (0 : Fin 2) * 128 + 1 * (y 0).val = (y 0).val; omega
    | ⟨1, _⟩ => show win0_1.index t (1 : Fin 2) * 84 + 1 * (y 1).val = (y 1).val; omega
  · show win0_2.index t (0 : Fin 2) * 10000 + 1 * (j 0).val = t.val * 10000 + (j 0).val; omega
  · show win0_2.index t (1 : Fin 2) * 84 + 1 * (j 1).val = (j 1).val; omega

/-- An index of the output array is in point `t`'s block iff each coordinate is in the block's range on its axis. -/
theorem mem_blk (t : Fin cfg0.N) (i : S100000x84.Idx) :
    i ∈ ((cfg0.win 2).blk t).view.set ↔ ∀ a : Fin 2, win0_2.index t a * S10000x84.size a ≤ (i a).val ∧ (i a).val < win0_2.index t a * S10000x84.size a + S10000x84.size a := by
  show i ∈ ((View.whole main_v17).slice (win0_2.rect t)).set ↔ _
  rw [View.set_slice_whole, Rect.mem_set_unit]
  exact Iff.rfl

/-- Every index of the output array is in some point's block: row `r` in block `r / 10000`. -/
theorem cover (i : S100000x84.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 84 := (i 1).isLt
  let t : Fin cfg0.N := ⟨(i 0).val / 10000, by rw [hN]; omega⟩
  obtain ⟨e0, e1, e2, e3, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 84 ≤ (i 1).val ∧ (i 1).val < win0_2.index t (1 : Fin 2) * 84 + 84; omega

/-- After the region its output array is the product of the activations and the weights as the region found them. -/
theorem arr_eq (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Region0

end
-- ==== Proof.Layer1.lean ====
/-
  Layer 1 of the kernel program.

  The first region leaves its output array at the product of the node features with the first weight matrix and touches
  no other buffer. The host operations that follow gather the product's rows at the messages' sources, scale each by
  the two endpoints' inverse square root degrees, add the messages up at their targets, add the bias and clamp at zero:
  literally the reference program's operations on the same values, so the activations are the reference's.
-/
import proofs.«167872_j74036646248595_1_alg».proof.Proof.SegA
import proofs.«167872_j74036646248595_1_alg».proof.Proof.Region0

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The source node of every message: the region does not touch it. -/
theorem R0_v3 : W3 m ρ c (Proc.devRef .tc main_v3) = Cert.ReferenceIdeal.Read.val_main_v3 (F := Ideal) (a1 m c) :=
  (W3_of_ne m ρ c main_v3 (by decide)).trans (A_v3 m ρ c)
/-- The target node of every message: the region does not touch it. -/
theorem R0_v6 : W3 m ρ c (Proc.devRef .tc main_v6) = Cert.ReferenceIdeal.Read.val_main_v6 (F := Ideal) (a1 m c) :=
  (W3_of_ne m ρ c main_v6 (by decide)).trans (A_v6 m ρ c)
/-- The inverse square root of every node's degree: the region does not touch it. -/
theorem R0_v16 : W3 m ρ c (Proc.devRef .tc main_v16) = Cert.ReferenceIdeal.Read.val_main_v16 (F := Ideal) (a1 m c) :=
  (W3_of_ne m ρ c main_v16 (by decide)).trans (A_v16 m ρ c)
/-- Argument 4: the region does not write it. -/
theorem R0_arg4 : W3 m ρ c (Proc.devRef .tc main_arg4) = a4 m c :=
  (W3_of_ne m ρ c main_arg4 (by decide)).trans (A_arg4 m ρ c)
/-- Argument 5: the region does not write it. -/
theorem R0_arg5 : W3 m ρ c (Proc.devRef .tc main_arg5) = a5 m c :=
  (W3_of_ne m ρ c main_arg5 (by decide)).trans (A_arg5 m ρ c)
/-- Argument 6: the region does not write it. -/
theorem R0_arg6 : W3 m ρ c (Proc.devRef .tc main_arg6) = a6 m c :=
  (W3_of_ne m ρ c main_arg6 (by decide)).trans (A_arg6 m ρ c)
/-- Argument 7: the region does not write it. -/
theorem R0_arg7 : W3 m ρ c (Proc.devRef .tc main_arg7) = a7 m c :=
  (W3_of_ne m ρ c main_arg7 (by decide)).trans (A_arg7 m ρ c)
/-- Argument 8: the region does not write it. -/
theorem R0_arg8 : W3 m ρ c (Proc.devRef .tc main_arg8) = a8 m c :=
  (W3_of_ne m ρ c main_arg8 (by decide)).trans (A_arg8 m ρ c)
/-- Argument 2: the region does not write it. -/
theorem R0_arg2 : W3 m ρ c (Proc.devRef .tc main_arg2) = a2 m c :=
  (W3_of_ne m ρ c main_arg2 (by decide)).trans (A_arg2 m ρ c)
/-- Argument 9: the region does not write it. -/
theorem R0_arg9 : W3 m ρ c (Proc.devRef .tc main_arg9) = a9 m c :=
  (W3_of_ne m ρ c main_arg9 (by decide)).trans (A_arg9 m ρ c)
/-- Argument 10: the region does not write it. -/
theorem R0_arg10 : W3 m ρ c (Proc.devRef .tc main_arg10) = a10 m c :=
  (W3_of_ne m ρ c main_arg10 (by decide)).trans (A_arg10 m ρ c)
/-- The first projection: the region's output array is the product of its two input arrays. -/
theorem R0_v17 : W3 m ρ c (Proc.devRef .tc main_v17) = Cert.ReferenceIdeal.Read.val_main_v17 (F := Ideal) (a0 m c) (a3 m c) := by
  refine (W3_arr m ρ c 2).trans ?_
  rw [Cert.KernelIdeal.Region0.arr_eq]
  show Cert.KernelIdeal.Region0.prod (W2 m ρ c (Proc.devRef .tc main_arg0)) (W2 m ρ c (Proc.devRef .tc main_arg3)) = _
  rw [A_arg0 m ρ c, A_arg3 m ρ c]
  rfl

/-- Layer 1's activations, at this boundary. -/
theorem B_v49 : W5 m ρ c (Proc.devRef .tc main_v49) = Cert.ReferenceIdeal.Read.val_main_v49 (F := Ideal) (a0 m c) (a1 m c) (a3 m c) (a4 m c) := by
  show StableHlo.after hostOps1_1 (StableHlo.after hostOps1 (W3 m ρ c)) (Proc.devRef .tc main_v49) = _
  rw [Cert.KernelIdeal.Calls.relu1_ops]
  dsimp only [hostOps1]
  after_results_simp
  rw [R0_v17 m ρ c, R0_v3 m ρ c, R0_v6 m ρ c, R0_v16 m ρ c, R0_arg4 m ρ c]
  rfl
/-- The source node of every message, at this boundary. -/
theorem B_v3 : W5 m ρ c (Proc.devRef .tc main_v3) = Cert.ReferenceIdeal.Read.val_main_v3 (F := Ideal) (a1 m c) :=
  (show StableHlo.after hostOps1_1 (StableHlo.after hostOps1 (W3 m ρ c)) (Proc.devRef .tc main_v3) = W3 m ρ c (Proc.devRef .tc main_v3) from by
    rw [Cert.KernelIdeal.Calls.relu1_ops]
    dsimp only [hostOps1]
    after_results_simp).trans (R0_v3 m ρ c)
/-- The target node of every message, at this boundary. -/
theorem B_v6 : W5 m ρ c (Proc.devRef .tc main_v6) = Cert.ReferenceIdeal.Read.val_main_v6 (F := Ideal) (a1 m c) :=
  (show StableHlo.after hostOps1_1 (StableHlo.after hostOps1 (W3 m ρ c)) (Proc.devRef .tc main_v6) = W3 m ρ c (Proc.devRef .tc main_v6) from by
    rw [Cert.KernelIdeal.Calls.relu1_ops]
    dsimp only [hostOps1]
    after_results_simp).trans (R0_v6 m ρ c)
/-- The inverse square root of every node's degree, at this boundary. -/
theorem B_v16 : W5 m ρ c (Proc.devRef .tc main_v16) = Cert.ReferenceIdeal.Read.val_main_v16 (F := Ideal) (a1 m c) :=
  (show StableHlo.after hostOps1_1 (StableHlo.after hostOps1 (W3 m ρ c)) (Proc.devRef .tc main_v16) = W3 m ρ c (Proc.devRef .tc main_v16) from by
    rw [Cert.KernelIdeal.Calls.relu1_ops]
    dsimp only [hostOps1]
    after_results_simp).trans (R0_v16 m ρ c)
/-- Argument 5 is still as launched at this boundary. -/
theorem B_arg5 : W5 m ρ c (Proc.devRef .tc main_arg5) = a5 m c :=
  (show StableHlo.after hostOps1_1 (StableHlo.after hostOps1 (W3 m ρ c)) (Proc.devRef .tc main_arg5) = W3 m ρ c (Proc.devRef .tc main_arg5) from by
    rw [Cert.KernelIdeal.Calls.relu1_ops]
    dsimp only [hostOps1]
    after_results_simp).trans (R0_arg5 m ρ c)
/-- Argument 6 is still as launched at this boundary. -/
theorem B_arg6 : W5 m ρ c (Proc.devRef .tc main_arg6) = a6 m c :=
  (show StableHlo.after hostOps1_1 (StableHlo.after hostOps1 (W3 m ρ c)) (Proc.devRef .tc main_arg6) = W3 m ρ c (Proc.devRef .tc main_arg6) from by
    rw [Cert.KernelIdeal.Calls.relu1_ops]
    dsimp only [hostOps1]
    after_results_simp).trans (R0_arg6 m ρ c)
/-- Argument 7 is still as launched at this boundary. -/
theorem B_arg7 : W5 m ρ c (Proc.devRef .tc main_arg7) = a7 m c :=
  (show StableHlo.after hostOps1_1 (StableHlo.after hostOps1 (W3 m ρ c)) (Proc.devRef .tc main_arg7) = W3 m ρ c (Proc.devRef .tc main_arg7) from by
    rw [Cert.KernelIdeal.Calls.relu1_ops]
    dsimp only [hostOps1]
    after_results_simp).trans (R0_arg7 m ρ c)
/-- Argument 8 is still as launched at this boundary. -/
theorem B_arg8 : W5 m ρ c (Proc.devRef .tc main_arg8) = a8 m c :=
  (show StableHlo.after hostOps1_1 (StableHlo.after hostOps1 (W3 m ρ c)) (Proc.devRef .tc main_arg8) = W3 m ρ c (Proc.devRef .tc main_arg8) from by
    rw [Cert.KernelIdeal.Calls.relu1_ops]
    dsimp only [hostOps1]
    after_results_simp).trans (R0_arg8 m ρ c)
/-- Argument 2 is still as launched at this boundary. -/
theorem B_arg2 : W5 m ρ c (Proc.devRef .tc main_arg2) = a2 m c :=
  (show StableHlo.after hostOps1_1 (StableHlo.after hostOps1 (W3 m ρ c)) (Proc.devRef .tc main_arg2) = W3 m ρ c (Proc.devRef .tc main_arg2) from by
    rw [Cert.KernelIdeal.Calls.relu1_ops]
    dsimp only [hostOps1]
    after_results_simp).trans (R0_arg2 m ρ c)
/-- Argument 9 is still as launched at this boundary. -/
theorem B_arg9 : W5 m ρ c (Proc.devRef .tc main_arg9) = a9 m c :=
  (show StableHlo.after hostOps1_1 (StableHlo.after hostOps1 (W3 m ρ c)) (Proc.devRef .tc main_arg9) = W3 m ρ c (Proc.devRef .tc main_arg9) from by
    rw [Cert.KernelIdeal.Calls.relu1_ops]
    dsimp only [hostOps1]
    after_results_simp).trans (R0_arg9 m ρ c)
/-- Argument 10 is still as launched at this boundary. -/
theorem B_arg10 : W5 m ρ c (Proc.devRef .tc main_arg10) = a10 m c :=
  (show StableHlo.after hostOps1_1 (StableHlo.after hostOps1 (W3 m ρ c)) (Proc.devRef .tc main_arg10) = W3 m ρ c (Proc.devRef .tc main_arg10) from by
    rw [Cert.KernelIdeal.Calls.relu1_ops]
    dsimp only [hostOps1]
    after_results_simp).trans (R0_arg10 m ρ c)

end Cert.KernelIdeal.Bridge

end
-- ==== Proof.Region1.lean ====
/-
  Layer 2's projection region as one matrix product.

  The region's grid has ten points. Point t stages rows 10000·t … 10000·t + 9999 of the [100000, 84] activations and
  the whole [84, 64] weight matrix, and writes back rows 10000·t … 10000·t + 9999 of the [100000, 64] output:
  entry (p, q) of the written block is Σ_k x[10000·t + p, k] · w[k, q], which is entry (10000·t + p, q) of the product
  of the whole matrices. The ten blocks tile the output array (row r lies in block r / 10000), so after the region the
  output array IS the host's product of the two arrays as the region found them, on the extended reals.
-/
import proofs.«167872_j74036646248595_1_alg».proof.Proof.Gen.KernelIdeal.Frame
import proofs.«167872_j74036646248595_1_alg».proof.Proof.RefDot
import proofs.«167872_j74036646248595_1_alg».proof.Proof.MatEntry
import proofs.«167872_j74036646248595_1_alg».proof.Proof.LibRowBlock

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The host's product of a [100000, 84] array and a [84, 64] array, with the reference program's dimension numbers. -/
abbrev prod (X : FVec Ideal S100000x84 .f32) (W : FVec Ideal S84x64 .f32) : FVec Ideal S100000x64 .f32 :=
  Host.dotGeneral (F := Ideal) Cert.ReferenceIdeal.dot_S100000x84_S84x64_S100000x64_1_0_0_1_n_n none X W

/-- Entry `i` of the whole product from a block of rows: `x` holds rows `o …` of `X`, `w` holds `W`, and `i` is row
    `o` plus `j`'s, column `j`'s. -/
theorem block_entry (X : FVec Ideal S100000x84 .f32) (W : FVec Ideal S84x64 .f32) (x : Vec Ideal S10000x84 .f32) (w : Vec Ideal S84x64 .f32) (o : Nat)
    (hx : ∀ (y : S10000x84.Idx) (z : S100000x84.Idx), (z 0).val = o + (y 0).val → (z 1).val = (y 1).val → x y = X z)
    (hw : ∀ y : S84x64.Idx, w y = W y)
    (j : S10000x64.Idx) (i : S100000x64.Idx) (hi0 : (i 0).val = o + (j 0).val) (hi1 : (i 1).val = (j 1).val) :
    k1_pay1 (F := Ideal) x w j = prod X W i := by
  obtain ⟨p, q, rfl⟩ : ∃ (p : Fin 10000) (q : Fin 64), j = ix2 p q := ⟨j 0, j 1, eq_ix2 j⟩
  obtain ⟨a, b, rfl⟩ : ∃ (a : Fin 100000) (b : Fin 64), i = ix2 a b := ⟨i 0, i 1, eq_ix2 i⟩
  rw [Cert.KernelIdeal.MatEntry.pay1_entry]
  show _ = Host.dotGeneral (F := Ideal) Cert.ReferenceIdeal.dot_S100000x84_S84x64_S100000x64_1_0_0_1_n_n none X W (ix2 a b)
  rw [Cert.ReferenceIdeal.DotEntry.prod1_entry]
  exact Cert.LibRowBlock.rowBlock_sum X W x w o hx hw p q a b hi0 hi1

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the activations' and the output's row block is the point's number, the weights'
    block and every column block is 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the region finds them. -/
theorem flushed_eq (c : Dev nD) (t : Fin cfg1.N) :
    (dat1 V c).flushed 2 t = ((cfg1.win 2).blk t).view.read (Elt Ideal) (prod (V c main_v49) (V c main_arg5)) := by
  show (cfg1.win 2).cut (grid1.coords t) ((dat1 V c).after 2 t) = _
  rw [after1_2]
  unfold out1_2
  rw [View.canon_unit_zero hz]
  simp only [View.ld_unit_zero (S := S10000x84) hz, View.ld_unit_zero (S := S84x64) hz]
  obtain ⟨e0, e1, e2, e3, e4, e5⟩ := idx_facts t
  funext j
  show k1_pay1 (F := Ideal) (iblk1 V c 0 t) (iblk1 V c 1 t) j = prod (V c main_v49) (V c main_arg5) (((cfg1.win 2).blk t).view.emb j)
  refine block_entry (V c main_v49) (V c main_arg5) (iblk1 V c 0 t) (iblk1 V c 1 t) (t.val * 10000) ?_ ?_ j (((cfg1.win 2).blk t).view.emb j) ?_ ?_
  · intro y z hz0 hz1
    show V c main_v49 (((cfg1.win 0).blk t).view.emb y) = V c main_v49 z
    refine congrArg (V c main_v49) ?_
    funext a; apply Fin.ext
    match a with
    | ⟨0, _⟩ => show win1_0.index t (0 : Fin 2) * 10000 + 1 * (y 0).val = (z 0).val; omega
    | ⟨1, _⟩ => show win1_0.index t (1 : Fin 2) * 84 + 1 * (y 1).val = (z 1).val; omega
  · intro y
    show V c main_arg5 (((cfg1.win 1).blk t).view.emb y) = V c main_arg5 y
    refine congrArg (V c main_arg5) ?_
    funext a; apply Fin.ext
    match a with
    | ⟨0, _⟩ => show win1_1.index t (0 : Fin 2) * 84 + 1 * (y 0).val = (y 0).val; omega
    | ⟨1, _⟩ => show win1_1.index t (1 : Fin 2) * 64 + 1 * (y 1).val = (y 1).val; omega
  · show win1_2.index t (0 : Fin 2) * 10000 + 1 * (j 0).val = t.val * 10000 + (j 0).val; omega
  · show win1_2.index t (1 : Fin 2) * 64 + 1 * (j 1).val = (j 1).val; omega

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v50).slice (win1_2.rect t)).set ↔ _
  rw [View.set_slice_whole, Rect.mem_set_unit]
  exact Iff.rfl

/-- Every index of the output array is in some point's block: row `r` in block `r / 10000`. -/
theorem cover (i : S100000x64.Idx) : ∃ t : Fin cfg1.N, (cfg1.win 2).flush t = true ∧ i ∈ ((cfg1.win 2).blk t).view.set := by
  have hN : cfg1.N = 10 := N_1
  have hi0 : (i 0).val < 100000 := (i 0).isLt
  have hi1 : (i 1).val < 64 := (i 1).isLt
  let t : Fin cfg1.N := ⟨(i 0).val / 10000, by rw [hN]; omega⟩
  obtain ⟨e0, e1, e2, e3, e4, e5⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region its output array is the product of the activations and the weights as the region found them. -/
theorem arr_eq (c : Dev nD) : (dat1 V c).arrAt 2 cfg1.N = prod (V c main_v49) (V c main_arg5) :=
  (dat1 V c).arrAt_eq_of_cover 2 (prod (V c main_v49) (V c main_arg5)) (fun t _ => flushed_eq V c t) cover

end Cert.KernelIdeal.Region1

end
-- ==== Proof.Layer2.lean ====
/-
  Layer 2 of the kernel program.

  The second region leaves its output array at the product of layer 1's activations with the second weight matrix; the
  host operations that follow are the reference program's message passing, bias and clamp on the same values.
-/
import proofs.«167872_j74036646248595_1_alg».proof.Proof.Layer1
import proofs.«167872_j74036646248595_1_alg».proof.Proof.Region1

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The source node of every message: the region does not touch it. -/
theorem R1_v3 : W6 m ρ c (Proc.devRef .tc main_v3) = Cert.ReferenceIdeal.Read.val_main_v3 (F := Ideal) (a1 m c) :=
  (W6_of_ne m ρ c main_v3 (by decide)).trans (B_v3 m ρ c)
/-- The target node of every message: the region does not touch it. -/
theorem R1_v6 : W6 m ρ c (Proc.devRef .tc main_v6) = Cert.ReferenceIdeal.Read.val_main_v6 (F := Ideal) (a1 m c) :=
  (W6_of_ne m ρ c main_v6 (by decide)).trans (B_v6 m ρ c)
/-- The inverse square root of every node's degree: the region does not touch it. -/
theorem R1_v16 : W6 m ρ c (Proc.devRef .tc main_v16) = Cert.ReferenceIdeal.Read.val_main_v16 (F := Ideal) (a1 m c) :=
  (W6_of_ne m ρ c main_v16 (by decide)).trans (B_v16 m ρ c)
/-- Argument 6: the region does not write it. -/
theorem R1_arg6 : W6 m ρ c (Proc.devRef .tc main_arg6) = a6 m c :=
  (W6_of_ne m ρ c main_arg6 (by decide)).trans (B_arg6 m ρ c)
/-- Argument 7: the region does not write it. -/
theorem R1_arg7 : W6 m ρ c (Proc.devRef .tc main_arg7) = a7 m c :=
  (W6_of_ne m ρ c main_arg7 (by decide)).trans (B_arg7 m ρ c)
/-- Argument 8: the region does not write it. -/
theorem R1_arg8 : W6 m ρ c (Proc.devRef .tc main_arg8) = a8 m c :=
  (W6_of_ne m ρ c main_arg8 (by decide)).trans (B_arg8 m ρ c)
/-- Argument 2: the region does not write it. -/
theorem R1_arg2 : W6 m ρ c (Proc.devRef .tc main_arg2) = a2 m c :=
  (W6_of_ne m ρ c main_arg2 (by decide)).trans (B_arg2 m ρ c)
/-- Argument 9: the region does not write it. -/
theorem R1_arg9 : W6 m ρ c (Proc.devRef .tc main_arg9) = a9 m c :=
  (W6_of_ne m ρ c main_arg9 (by decide)).trans (B_arg9 m ρ c)
/-- Argument 10: the region does not write it. -/
theorem R1_arg10 : W6 m ρ c (Proc.devRef .tc main_arg10) = a10 m c :=
  (W6_of_ne m ρ c main_arg10 (by decide)).trans (B_arg10 m ρ c)
/-- The second projection: the region's output array is the product of its two input arrays. -/
theorem R1_v50 : W6 m ρ c (Proc.devRef .tc main_v50) = Cert.ReferenceIdeal.Read.val_main_v50 (F := Ideal) (a0 m c) (a1 m c) (a3 m c) (a4 m c) (a5 m c) := by
  refine (W6_arr m ρ c 2).trans ?_
  rw [Cert.KernelIdeal.Region1.arr_eq]
  show Cert.KernelIdeal.Region1.prod (W5 m ρ c (Proc.devRef .tc main_v49)) (W5 m ρ c (Proc.devRef .tc main_arg5)) = _
  rw [B_v49 m ρ c, B_arg5 m ρ c]
  rfl

/-- Layer 2's activations, at this boundary. -/
theorem C_v82 : W8 m ρ c (Proc.devRef .tc main_v82) = Cert.ReferenceIdeal.Read.val_main_v82 (F := Ideal) (a0 m c) (a1 m c) (a3 m c) (a4 m c) (a5 m c) (a6 m c) := by
  show StableHlo.after hostOps2_1 (StableHlo.after hostOps2 (W6 m ρ c)) (Proc.devRef .tc main_v82) = _
  rw [Cert.KernelIdeal.Calls.relu2_ops]
  dsimp only [hostOps2]
  after_results_simp
  rw [R1_v50 m ρ c, R1_v3 m ρ c, R1_v6 m ρ c, R1_v16 m ρ c, R1_arg6 m ρ c]
  rfl
/-- The source node of every message, at this boundary. -/
theorem C_v3 : W8 m ρ c (Proc.devRef .tc main_v3) = Cert.ReferenceIdeal.Read.val_main_v3 (F := Ideal) (a1 m c) :=
  (show StableHlo.after hostOps2_1 (StableHlo.after hostOps2 (W6 m ρ c)) (Proc.devRef .tc main_v3) = W6 m ρ c (Proc.devRef .tc main_v3) from by
    rw [Cert.KernelIdeal.Calls.relu2_ops]
    dsimp only [hostOps2]
    after_results_simp).trans (R1_v3 m ρ c)
/-- The target node of every message, at this boundary. -/
theorem C_v6 : W8 m ρ c (Proc.devRef .tc main_v6) = Cert.ReferenceIdeal.Read.val_main_v6 (F := Ideal) (a1 m c) :=
  (show StableHlo.after hostOps2_1 (StableHlo.after hostOps2 (W6 m ρ c)) (Proc.devRef .tc main_v6) = W6 m ρ c (Proc.devRef .tc main_v6) from by
    rw [Cert.KernelIdeal.Calls.relu2_ops]
    dsimp only [hostOps2]
    after_results_simp).trans (R1_v6 m ρ c)
/-- The inverse square root of every node's degree, at this boundary. -/
theorem C_v16 : W8 m ρ c (Proc.devRef .tc main_v16) = Cert.ReferenceIdeal.Read.val_main_v16 (F := Ideal) (a1 m c) :=
  (show StableHlo.after hostOps2_1 (StableHlo.after hostOps2 (W6 m ρ c)) (Proc.devRef .tc main_v16) = W6 m ρ c (Proc.devRef .tc main_v16) from by
    rw [Cert.KernelIdeal.Calls.relu2_ops]
    dsimp only [hostOps2]
    after_results_simp).trans (R1_v16 m ρ c)
/-- Argument 7 is still as launched at this boundary. -/
theorem C_arg7 : W8 m ρ c (Proc.devRef .tc main_arg7) = a7 m c :=
  (show StableHlo.after hostOps2_1 (StableHlo.after hostOps2 (W6 m ρ c)) (Proc.devRef .tc main_arg7) = W6 m ρ c (Proc.devRef .tc main_arg7) from by
    rw [Cert.KernelIdeal.Calls.relu2_ops]
    dsimp only [hostOps2]
    after_results_simp).trans (R1_arg7 m ρ c)
/-- Argument 8 is still as launched at this boundary. -/
theorem C_arg8 : W8 m ρ c (Proc.devRef .tc main_arg8) = a8 m c :=
  (show StableHlo.after hostOps2_1 (StableHlo.after hostOps2 (W6 m ρ c)) (Proc.devRef .tc main_arg8) = W6 m ρ c (Proc.devRef .tc main_arg8) from by
    rw [Cert.KernelIdeal.Calls.relu2_ops]
    dsimp only [hostOps2]
    after_results_simp).trans (R1_arg8 m ρ c)
/-- Argument 2 is still as launched at this boundary. -/
theorem C_arg2 : W8 m ρ c (Proc.devRef .tc main_arg2) = a2 m c :=
  (show StableHlo.after hostOps2_1 (StableHlo.after hostOps2 (W6 m ρ c)) (Proc.devRef .tc main_arg2) = W6 m ρ c (Proc.devRef .tc main_arg2) from by
    rw [Cert.KernelIdeal.Calls.relu2_ops]
    dsimp only [hostOps2]
    after_results_simp).trans (R1_arg2 m ρ c)
/-- Argument 9 is still as launched at this boundary. -/
theorem C_arg9 : W8 m ρ c (Proc.devRef .tc main_arg9) = a9 m c :=
  (show StableHlo.after hostOps2_1 (StableHlo.after hostOps2 (W6 m ρ c)) (Proc.devRef .tc main_arg9) = W6 m ρ c (Proc.devRef .tc main_arg9) from by
    rw [Cert.KernelIdeal.Calls.relu2_ops]
    dsimp only [hostOps2]
    after_results_simp).trans (R1_arg9 m ρ c)
/-- Argument 10 is still as launched at this boundary. -/
theorem C_arg10 : W8 m ρ c (Proc.devRef .tc main_arg10) = a10 m c :=
  (show StableHlo.after hostOps2_1 (StableHlo.after hostOps2 (W6 m ρ c)) (Proc.devRef .tc main_arg10) = W6 m ρ c (Proc.devRef .tc main_arg10) from by
    rw [Cert.KernelIdeal.Calls.relu2_ops]
    dsimp only [hostOps2]
    after_results_simp).trans (R1_arg10 m ρ c)

end Cert.KernelIdeal.Bridge

end
-- ==== Proof.Region2.lean ====
/-
  Layer 3's projection region as one matrix product.

  The region's grid has ten points. Point t stages rows 10000·t … 10000·t + 9999 of the [100000, 64] activations and
  the whole [64, 32] weight matrix, and writes back rows 10000·t … 10000·t + 9999 of the [100000, 32] output:
  entry (p, q) of the written block is Σ_k x[10000·t + p, k] · w[k, q], which is entry (10000·t + p, q) of the product
  of the whole matrices. The ten blocks tile the output array (row r lies in block r / 10000), so after the region the
  output array IS the host's product of the two arrays as the region found them, on the extended reals.
-/
import proofs.«167872_j74036646248595_1_alg».proof.Proof.Gen.KernelIdeal.Frame
import proofs.«167872_j74036646248595_1_alg».proof.Proof.RefDot
import proofs.«167872_j74036646248595_1_alg».proof.Proof.MatEntry
import proofs.«167872_j74036646248595_1_alg».proof.Proof.LibRowBlock

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The host's product of a [100000, 64] array and a [64, 32] array, with the reference program's dimension numbers. -/
abbrev prod (X : FVec Ideal S100000x64 .f32) (W : FVec Ideal S64x32 .f32) : FVec Ideal S100000x32 .f32 :=
  Host.dotGeneral (F := Ideal) Cert.ReferenceIdeal.dot_S100000x64_S64x32_S100000x32_1_0_0_1_n_n none X W

/-- Entry `i` of the whole product from a block of rows: `x` holds rows `o …` of `X`, `w` holds `W`, and `i` is row
    `o` plus `j`'s, column `j`'s. -/
theorem block_entry (X : FVec Ideal S100000x64 .f32) (W : FVec Ideal S64x32 .f32) (x : Vec Ideal S10000x64 .f32) (w : Vec Ideal S64x32 .f32) (o : Nat)
    (hx : ∀ (y : S10000x64.Idx) (z : S100000x64.Idx), (z 0).val = o + (y 0).val → (z 1).val = (y 1).val → x y = X z)
    (hw : ∀ y : S64x32.Idx, w y = W y)
    (j : S10000x32.Idx) (i : S100000x32.Idx) (hi0 : (i 0).val = o + (j 0).val) (hi1 : (i 1).val = (j 1).val) :
    k2_pay1 (F := Ideal) x w j = prod X W i := by
  obtain ⟨p, q, rfl⟩ : ∃ (p : Fin 10000) (q : Fin 32), j = ix2 p q := ⟨j 0, j 1, eq_ix2 j⟩
  obtain ⟨a, b, rfl⟩ : ∃ (a : Fin 100000) (b : Fin 32), i = ix2 a b := ⟨i 0, i 1, eq_ix2 i⟩
  rw [Cert.KernelIdeal.MatEntry.pay2_entry]
  show _ = Host.dotGeneral (F := Ideal) Cert.ReferenceIdeal.dot_S100000x64_S64x32_S100000x32_1_0_0_1_n_n none X W (ix2 a b)
  rw [Cert.ReferenceIdeal.DotEntry.prod2_entry]
  exact Cert.LibRowBlock.rowBlock_sum X W x w o hx hw p q a b hi0 hi1

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the activations' and the output's row block is the point's number, the weights'
    block and every column block is 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed_eq (c : Dev nD) (t : Fin cfg2.N) :
    (dat2 V c).flushed 2 t = ((cfg2.win 2).blk t).view.read (Elt Ideal) (prod (V c main_v82) (V c main_arg7)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x32) hz]
  obtain ⟨e0, e1, e2, e3, e4, e5⟩ := idx_facts t
  funext j
  show k2_pay1 (F := Ideal) (iblk2 V c 0 t) (iblk2 V c 1 t) j = prod (V c main_v82) (V c main_arg7) (((cfg2.win 2).blk t).view.emb j)
  refine block_entry (V c main_v82) (V c main_arg7) (iblk2 V c 0 t) (iblk2 V c 1 t) (t.val * 10000) ?_ ?_ j (((cfg2.win 2).blk t).view.emb j) ?_ ?_
  · intro y z hz0 hz1
    show V c main_v82 (((cfg2.win 0).blk t).view.emb y) = V c main_v82 z
    refine congrArg (V c main_v82) ?_
    funext a; apply Fin.ext
    match a with
    | ⟨0, _⟩ => show win2_0.index t (0 : Fin 2) * 10000 + 1 * (y 0).val = (z 0).val; omega
    | ⟨1, _⟩ => show win2_0.index t (1 : Fin 2) * 64 + 1 * (y 1).val = (z 1).val; omega
  · intro y
    show V c main_arg7 (((cfg2.win 1).blk t).view.emb y) = V c main_arg7 y
    refine congrArg (V c main_arg7) ?_
    funext a; apply Fin.ext
    match a with
    | ⟨0, _⟩ => show win2_1.index t (0 : Fin 2) * 64 + 1 * (y 0).val = (y 0).val; omega
    | ⟨1, _⟩ => show win2_1.index t (1 : Fin 2) * 32 + 1 * (y 1).val = (y 1).val; omega
  · show win2_2.index t (0 : Fin 2) * 10000 + 1 * (j 0).val = t.val * 10000 + (j 0).val; omega
  · show win2_2.index t (1 : Fin 2) * 32 + 1 * (j 1).val = (j 1).val; omega

/-- An index of the output array is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v83).slice (win2_2.rect t)).set ↔ _
  rw [View.set_slice_whole, Rect.mem_set_unit]
  exact Iff.rfl

/-- Every index of the output array is in some point's block: row `r` in block `r / 10000`. -/
theorem cover (i : S100000x32.Idx) : ∃ t : Fin cfg2.N, (cfg2.win 2).flush t = true ∧ i ∈ ((cfg2.win 2).blk t).view.set := by
  have hN : cfg2.N = 10 := N_2
  have hi0 : (i 0).val < 100000 := (i 0).isLt
  have hi1 : (i 1).val < 32 := (i 1).isLt
  let t : Fin cfg2.N := ⟨(i 0).val / 10000, by rw [hN]; omega⟩
  obtain ⟨e0, e1, e2, e3, e4, e5⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- After the region its output array is the product of the activations and the weights as the region found them. -/
theorem arr_eq (c : Dev nD) : (dat2 V c).arrAt 2 cfg2.N = prod (V c main_v82) (V c main_arg7) :=
  (dat2 V c).arrAt_eq_of_cover 2 (prod (V c main_v82) (V c main_arg7)) (fun t _ => flushed_eq V c t) cover

end Cert.KernelIdeal.Region2

end
-- ==== Proof.Layer3.lean ====
/-
  Layer 3 of the kernel program, the pooling and the final linear map.

  The third region leaves its output array at the product of layer 2's activations with the third weight matrix. The
  host operations that follow are the reference program's: message passing, bias and clamp, the per-graph sums of the
  node activations divided by the per-graph node counts (at least one), and the final product and bias. So the result
  buffer ends at the reference's value of the eleven arguments.
-/
import proofs.«167872_j74036646248595_1_alg».proof.Proof.Layer2
import proofs.«167872_j74036646248595_1_alg».proof.Proof.Region2

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The source node of every message: the region does not touch it. -/
theorem R2_v3 : W9 m ρ c (Proc.devRef .tc main_v3) = Cert.ReferenceIdeal.Read.val_main_v3 (F := Ideal) (a1 m c) :=
  (W9_of_ne m ρ c main_v3 (by decide)).trans (C_v3 m ρ c)
/-- The target node of every message: the region does not touch it. -/
theorem R2_v6 : W9 m ρ c (Proc.devRef .tc main_v6) = Cert.ReferenceIdeal.Read.val_main_v6 (F := Ideal) (a1 m c) :=
  (W9_of_ne m ρ c main_v6 (by decide)).trans (C_v6 m ρ c)
/-- The inverse square root of every node's degree: the region does not touch it. -/
theorem R2_v16 : W9 m ρ c (Proc.devRef .tc main_v16) = Cert.ReferenceIdeal.Read.val_main_v16 (F := Ideal) (a1 m c) :=
  (W9_of_ne m ρ c main_v16 (by decide)).trans (C_v16 m ρ c)
/-- Argument 8: the region does not write it. -/
theorem R2_arg8 : W9 m ρ c (Proc.devRef .tc main_arg8) = a8 m c :=
  (W9_of_ne m ρ c main_arg8 (by decide)).trans (C_arg8 m ρ c)
/-- Argument 2: the region does not write it. -/
theorem R2_arg2 : W9 m ρ c (Proc.devRef .tc main_arg2) = a2 m c :=
  (W9_of_ne m ρ c main_arg2 (by decide)).trans (C_arg2 m ρ c)
/-- Argument 9: the region does not write it. -/
theorem R2_arg9 : W9 m ρ c (Proc.devRef .tc main_arg9) = a9 m c :=
  (W9_of_ne m ρ c main_arg9 (by decide)).trans (C_arg9 m ρ c)
/-- Argument 10: the region does not write it. -/
theorem R2_arg10 : W9 m ρ c (Proc.devRef .tc main_arg10) = a10 m c :=
  (W9_of_ne m ρ c main_arg10 (by decide)).trans (C_arg10 m ρ c)
/-- The third projection: the region's output array is the product of its two input arrays. -/
theorem R2_v83 : W9 m ρ c (Proc.devRef .tc main_v83) = Cert.ReferenceIdeal.Read.val_main_v83 (F := Ideal) (a0 m c) (a1 m c) (a3 m c) (a4 m c) (a5 m c) (a6 m c) (a7 m c) := by
  refine (W9_arr m ρ c 2).trans ?_
  rw [Cert.KernelIdeal.Region2.arr_eq]
  show Cert.KernelIdeal.Region2.prod (W8 m ρ c (Proc.devRef .tc main_v82)) (W8 m ρ c (Proc.devRef .tc main_arg7)) = _
  rw [C_v82 m ρ c, C_arg7 m ρ c]
  rfl

/-- The result, at this boundary. -/
theorem D_v131 : W12 m ρ c (Proc.devRef .tc main_v131) = Cert.ReferenceIdeal.Read.val_main_v131 (F := Ideal) (a0 m c) (a1 m c) (a2 m c) (a3 m c) (a4 m c) (a5 m c) (a6 m c) (a7 m c) (a8 m c) (a9 m c) (a10 m c) := by
  show StableHlo.after hostOps3_2 (StableHlo.after hostOps3_1 (StableHlo.after hostOps3 (W9 m ρ c))) (Proc.devRef .tc main_v131) = _
  rw [Cert.KernelIdeal.Calls.relu3_ops]
  dsimp only [hostOps3, hostOps3_2]
  after_results_simp
  rw [R2_v83 m ρ c, R2_v3 m ρ c, R2_v6 m ρ c, R2_v16 m ρ c, R2_arg8 m ρ c, R2_arg2 m ρ c, R2_arg9 m ρ c, R2_arg10 m ρ c]
  rfl

end Cert.KernelIdeal.Bridge

end
-- ==== Proof.lean ====
/-
  A three-layer graph convolution network, its mean pooling over graphs and a final linear map: the kernel program
  against its reference, on the extended reals.

  Both programs build, from the edge list with one self loop added per node, the source and target node of every
  message and every node's inverse square root degree; then, three times, they project the node activations by a weight
  matrix, gather the projected rows at the sources, scale each by its two endpoints' inverse square root degrees, add
  the messages up at their targets, add a bias and clamp at zero; then they average the node activations of each graph
  and apply a last linear map. The two programs differ in the projections only. The reference computes each as one
  product of the [100000, K] activations with the [K, N] weights. The kernel program computes it in a region of ten
  grid points: point t changes rows 10000·t … 10000·t + 9999 of the activations and the weights to a narrower float
  format, multiplies them into a zero accumulator and writes the [10000, N] block back. On the extended reals a change
  of float format is the identity and both products are the same sum Σ_k x[i,k] · w[k,j], term by term, so the region's
  output array IS the reference's product (Region0, Region1, Region2), and every host operation after it is applied to
  equal values by both programs. No law of arithmetic is used, so the finiteness of the inputs is never opened.

  The kernel program's run is read at its last boundary (KRun); its buffers at each boundary are the reference's stage
  functions of the launch arguments (SegA, Layer1, Layer2, Layer3); the reference's run ends at the same function of
  arguments that agree. The frames of the kernel programs are generated; the reference's is its run with the result
  dropped; the kernel's idealization rewrote nothing, so there is nothing to preserve.
-/
import proofs.«167872_j74036646248595_1_alg».proof.Defs
import proofs.«167872_j74036646248595_1_alg».proof.Proof.Gen.Kernel
import proofs.«167872_j74036646248595_1_alg».proof.Proof.Gen.Kernel.Frame
import proofs.«167872_j74036646248595_1_alg».proof.Proof.Gen.KernelIdeal
import proofs.«167872_j74036646248595_1_alg».proof.Proof.Gen.KernelIdeal.Frame
import proofs.«167872_j74036646248595_1_alg».proof.Proof.Gen.ReferenceIdeal
import proofs.«167872_j74036646248595_1_alg».proof.Proof.Gen.Pre_finite_inputs
import proofs.«167872_j74036646248595_1_alg».proof.Proof.KRun
import proofs.«167872_j74036646248595_1_alg».proof.Proof.Layer3
import proofs.«167872_j74036646248595_1_alg».proof.Proof.RefRead
import Idealize.ShloMosaic.Adequacy
import Idealize.ShloMosaic.Init

noncomputable section

namespace Cert.Proof

open Idealize.ShloMosaic Idealize.SL.Sem Cert.KernelIdeal.Bridge

theorem frame_k : Cert.frame_Kernel := fun m ρ _ => Cert.Kernel.Gen.frame m ρ

theorem frame_ki : Cert.frame_KernelIdeal := fun m ρ _ => Cert.KernelIdeal.Gen.frame m ρ

/-- The reference program has no region: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- Both programs end with the result buffer at the reference's function of the kernel program's launch arguments:
    the kernel program by its boundary invariants, the reference by its run, its arguments agreeing with the kernel's. -/
theorem algebraic : Cert.algebraic_KernelIdeal_ReferenceIdeal := by
  intro m ρ m' ρ' _ hagree
  refine ⟨fun c => Cert.ReferenceIdeal.Read.val_main_v131 (F := Ideal) (a0 m c) (a1 m c) (a2 m c) (a3 m c) (a4 m c) (a5 m c) (a6 m c) (a7 m c) (a8 m c) (a9 m c) (a10 m c), ?_, ?_⟩
  · exact (θ_run Cert.KernelIdeal.defs _ _).mono
      (fun r h c => ⟨(h c).1.trans (Cert.KernelIdeal.Bridge.D_v131 m ρ c), (h c).2⟩)
      (Cert.KernelIdeal.RunAll.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v131_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
